-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v40)) (v1 : (c : Dev Cert.KernelIdeal.nD) → Buf (Elt Ideal) ((c.tc : Thread Cert.KernelIdeal.nD Cert.KernelIdeal.τ).loc Cert.KernelIdeal.main_v34_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_v34_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S64x128 : Shape := ⟨2, ![64, 128]⟩
abbrev S401x128 : Shape := ⟨2, ![401, 128]⟩
abbrev S64 : Shape := ⟨1, ![64]⟩
abbrev S1x64 : Shape := ⟨2, ![1, 64]⟩
abbrev S1 : Shape := ⟨1, ![1]⟩
abbrev S128x128 : Shape := ⟨2, ![128, 128]⟩
abbrev S1000000 : Shape := ⟨1, ![1000000]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S401x128 : S_.BroadcastsInDim S401x128 (![] : Fin 0 → Fin S401x128.rank)
  reducesTo_S401x128_S_d0_1 : S401x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  main_v53

def fn_part2 {F : FTy → Type} [FloatOps F] (main_arg7 : FVec F S64x128 .f32) (main_arg8 : FVec F S1x64 .f32) (main_arg9 : FVec F S1 .f32) (main_arg10 : FVec F S128x128 .f32) (main_v33 : IVec S_ 1) : IVec S_ 1 :=
  let main_v34 : FVec F S64x128 .f32 := Host.absf main_arg7
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S1x64 .f32 := Host.absf main_arg8
  let main_cst_14 : FVec F S_ .f32 := constant S_ .f32 0x7F800000#32
  let main_v40 : FVec F S1x64 .f32 := broadcastInDim S1x64 ![] bcast_S_S1x64 main_cst_14
  let main_v41 : IVec S1x64 1 := cmpf .olt main_v39 main_v40
  let main_c_15 : IVec S_ 1 := constantI S_ 1 1#1
  let main_v42 : IVec S_ 1 := (fun x v => Host.reduce IntOp.andi x v reducesTo_S1x64_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_v48 main_v49 main_v50

def fn_part1 {F : FTy → Type} [FloatOps F] (main_arg4 : FVec F S64 .f32) (main_arg5 : FVec F S64x128 .f32) (main_arg6 : FVec F S64x128 .f32) (main_arg7 : FVec F S64x128 .f32) (main_arg8 : FVec F S1x64 .f32) (main_arg9 : FVec F S1 .f32) (main_arg10 : FVec F S128x128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg5
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64x128 .f32 := Host.absf main_arg6
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S200000x128 .f32) (main_arg1 : FVec F S64x128 .f32) (main_arg2 : FVec F S401x128 .f32) (main_arg3 : FVec F S64x128 .f32) (main_arg4 : FVec F S64 .f32) (main_arg5 : FVec F S64x128 .f32) (main_arg6 : FVec F S64x128 .f32) (main_arg7 : FVec F S64x128 .f32) (main_arg8 : FVec F S1x64 .f32) (main_arg9 : FVec F S1 .f32) (main_arg10 : FVec F S128x128 .f32) (main_arg11 : IVec S1000000 32) (main_arg12 : IVec S1000000 32) (main_arg13 : IVec S1000000 32) (main_arg14 : IVec S1000000 32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S401x128 .f32 := Host.absf main_arg2
  let main_cst_2 : FVec F S_ .f32 := constant S_ .f32 0x7F800000#32
  let main_v10 : FVec F S401x128 .f32 := broadcastInDim S401x128 ![] bcast_S_S401x128 main_cst_2
  let main_v11 : IVec S401x128 1 := cmpf .olt main_v9 main_v10
  let main_c_3 : IVec S_ 1 := constantI S_ 1 1#1
  let main_v12 : IVec S_ 1 := (fun x v => Host.reduce IntOp.andi x v reducesTo_S401x128_S_d0_1 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg4 main_arg5 main_arg6 main_arg7 main_arg8 main_arg9 main_arg10 main_v13 main_v16
-- ==== Kernel.lean ====
abbrev S200000x128 : Shape := ⟨2, ![200000, 128]⟩
abbrev S64x128 : Shape := ⟨2, ![64, 128]⟩
abbrev S401x128 : Shape := ⟨2, ![401, 128]⟩
abbrev S64 : Shape := ⟨1, ![64]⟩
abbrev S1x64 : Shape := ⟨2, ![1, 64]⟩
abbrev S1 : Shape := ⟨1, ![1]⟩
abbrev S128x128 : Shape := ⟨2, ![128, 128]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S128x64 : Shape := ⟨2, ![128, 64]⟩
abbrev S1x1 : Shape := ⟨2, ![1, 1]⟩
abbrev S5000x128 : Shape := ⟨2, ![5000, 128]⟩
abbrev S5000x1 : Shape := ⟨2, ![5000, 1]⟩
abbrev S5000x64 : Shape := ⟨2, ![5000, 64]⟩
abbrev S5000 : Shape := ⟨1, ![5000]⟩
abbrev S10000x128 : Shape := ⟨2, ![10000, 128]⟩

abbrev nBuf : Space → Nat
  | .hbm => 64
  | .vmem => 22
  | .smem => 0
  | _ => 0

abbrev bufTy : (tb : Table) → Fin (tcTables nBuf tb) → BufTy
  | .hbm, ⟨0, _⟩ => ⟨S200000x128, .f32⟩
  | .hbm, ⟨1, _⟩ => ⟨S64x128, .f32⟩
  | .hbm, ⟨2, _⟩ => ⟨S401x128, .f32⟩
  | .hbm, ⟨3, _⟩ => ⟨S64x128, .f32⟩
  | .hbm, ⟨4, _⟩ => ⟨S64, .f32⟩
  | .hbm, ⟨5, _⟩ => ⟨S64x128, .f32⟩
  | .hbm, ⟨6, _⟩ => ⟨S64x128, .f32⟩
  | .hbm, ⟨7, _⟩ => ⟨S64x128, .f32⟩
  | .hbm, ⟨8, _⟩ => ⟨S1x64, .f32⟩
  | .hbm, ⟨9, _⟩ => ⟨S1, .f32⟩
  | .hbm, ⟨10, _⟩ => ⟨S128x128, .f32⟩
  | .hbm, ⟨11, _⟩ => ⟨S1000000, .i32⟩
  | .hbm, ⟨12, _⟩ => ⟨S1000000, .i32⟩
  | .hbm, ⟨13, _⟩ => ⟨S1000000, .i32⟩
  | .hbm, ⟨14, _⟩ => ⟨S1000000, .i32⟩
  | .hbm, ⟨15, _⟩ => ⟨S200000x128, .bf16⟩
  | .hbm, ⟨16, _⟩ => ⟨S401x128, .bf16⟩
  | .hbm, ⟨17, _⟩ => ⟨S64x128, .bf16⟩
  | .hbm, ⟨18, _⟩ => ⟨S_, .i32⟩
  | .hbm, ⟨19, _⟩ => ⟨S1000000, .i32⟩
  | .hbm, ⟨20, _⟩ => ⟨S1000000, .i1⟩
  | .hbm, ⟨21, _⟩ => ⟨S_, .i32⟩
  | .hbm, ⟨22, _⟩ => ⟨S1000000, .i32⟩
  | .hbm, ⟨23, _⟩ => ⟨S1000000, .i32⟩
  | .hbm, ⟨24, _⟩ => ⟨S1000000, .i32⟩
  | .hbm, ⟨25, _⟩ => ⟨S1000000x1, .i32⟩
  | .hbm, ⟨26, _⟩ => ⟨S1000000x128, .bf16⟩
  | .hbm, ⟨27, _⟩ => ⟨S_, .i32⟩
  | .hbm, ⟨28, _⟩ => ⟨S1000000, .i32⟩
  | .hbm, ⟨29, _⟩ => ⟨S1000000, .i1⟩
  | .hbm, ⟨30, _⟩ => ⟨S_, .i32⟩
  | .hbm, ⟨31, _⟩ => ⟨S1000000, .i32⟩
  | .hbm, ⟨32, _⟩ => ⟨S1000000, .i32⟩
  | .hbm, ⟨33, _⟩ => ⟨S1000000, .i32⟩
  | .hbm, ⟨34, _⟩ => ⟨S1000000x1, .i32⟩
  | .hbm, ⟨35, _⟩ => ⟨S1000000x128, .bf16⟩
  | .hbm, ⟨36, _⟩ => ⟨S_, .i32⟩
  | .hbm, ⟨37, _⟩ => ⟨S1000000, .i32⟩
  | .hbm, ⟨38, _⟩ => ⟨S1000000, .i1⟩
  | .hbm, ⟨39, _⟩ => ⟨S_, .i32⟩
  | .hbm, ⟨40, _⟩ => ⟨S1000000, .i32⟩
  | .hbm, ⟨41, _⟩ => ⟨S1000000, .i32⟩
  | .hbm, ⟨42, _⟩ => ⟨S1000000, .i32⟩
  | .hbm, ⟨43, _⟩ => ⟨S1000000x1, .i32⟩
  | .hbm, ⟨44, _⟩ => ⟨S1000000x128, .bf16⟩
  | .hbm, ⟨45, _⟩ => ⟨S128x64, .f32⟩
  | .hbm, ⟨46, _⟩ => ⟨S128x64, .bf16⟩
  | .hbm, ⟨47, _⟩ => ⟨S128x64, .f32⟩
  | .hbm, ⟨48, _⟩ => ⟨S128x64, .bf16⟩
  | .hbm, ⟨49, _⟩ => ⟨S128x64, .f32⟩
  | .hbm, ⟨50, _⟩ => ⟨S128x64, .bf16⟩
  | .hbm, ⟨51, _⟩ => ⟨S128x64, .f32⟩
  | .hbm, ⟨52, _⟩ => ⟨S128x64, .bf16⟩
  | .hbm, ⟨53, _⟩ => ⟨S1x64, .f32⟩
  | .hbm, ⟨54, _⟩ => ⟨S1x1, .f32⟩
  | .hbm, ⟨55, _⟩ => ⟨S1000000x128, .f32⟩
  | .hbm, ⟨56, _⟩ => ⟨S1000000x1, .f32⟩
  | .hbm, ⟨57, _⟩ => ⟨S_, .f32⟩
  | .hbm, ⟨58, _⟩ => ⟨S200000x128, .f32⟩
  | .hbm, ⟨59, _⟩ => ⟨S1000000x1, .i32⟩
  | .hbm, ⟨60, _⟩ => ⟨S200000x128, .f32⟩
  | .hbm, ⟨61, _⟩ => ⟨S128x128, .f32⟩
  | .hbm, ⟨62, _⟩ => ⟨S128x128, .bf16⟩
  | .hbm, ⟨63, _⟩ => ⟨S200000x128, .f32⟩
  | .local _ .vmem, ⟨0, _⟩ => ⟨S5000x128, .bf16⟩
  | .local _ .vmem, ⟨1, _⟩ => ⟨S5000x128, .bf16⟩
  | .local _ .vmem, ⟨2, _⟩ => ⟨S5000x128, .bf16⟩
  | .local _ .vmem, ⟨3, _⟩ => ⟨S5000x128, .bf16⟩
  | .local _ .vmem, ⟨4, _⟩ => ⟨S5000x128, .bf16⟩
  | .local _ .vmem, ⟨5, _⟩ => ⟨S5000x128, .bf16⟩
  | .local _ .vmem, ⟨6, _⟩ => ⟨S128x64, .bf16⟩
  | .local _ .vmem, ⟨7, _⟩ => ⟨S1x64, .f32⟩
  | .local _ .vmem, ⟨8, _⟩ => ⟨S128x64, .bf16⟩
  | .local _ .vmem, ⟨9, _⟩ => ⟨S128x64, .bf16⟩
  | .local _ .vmem, ⟨10, _⟩ => ⟨S128x64, .bf16⟩
  | .local _ .vmem, ⟨11, _⟩ => ⟨S1x64, .f32⟩
  | .local _ .vmem, ⟨12, _⟩ => ⟨S1x1, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S10000x128, .f32⟩
  | .local _ .vmem, ⟨18, _⟩ => ⟨S10000x128, .f32⟩
  | .local _ .vmem, ⟨19, _⟩ => ⟨S128x128, .bf16⟩
  | .local _ .vmem, ⟨20, _⟩ => ⟨S10000x128, .f32⟩
  | .local _ .vmem, ⟨21, _⟩ => ⟨S10000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c : Ref sig .tc := ⟨.hbm, 18, rfl⟩
abbrev main_v3 : Ref sig .tc := ⟨.hbm, 19, rfl⟩
abbrev main_v4 : Ref sig .tc := ⟨.hbm, 20, rfl⟩
abbrev main_c_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_c_1 : Ref sig .tc := ⟨.hbm, 27, rfl⟩
abbrev main_v10 : Ref sig .tc := ⟨.hbm, 28, rfl⟩
abbrev main_v11 : Ref sig .tc := ⟨.hbm, 29, rfl⟩
abbrev main_c_2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34_0 : Ref sig .tc := ⟨.hbm, 55, rfl⟩
abbrev main_v34_1 : Ref sig .tc := ⟨.hbm, 56, rfl⟩
abbrev main_cst : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg2_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc1_sem0_0 : DmaSem sig := 17
abbrev cc1_sem0_1 : DmaSem sig := 18
abbrev cc1_sem1_0 : DmaSem sig := 19
abbrev cc1_sem2_0 : DmaSem sig := 20
abbrev cc1_sem2_1 : DmaSem sig := 21

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S5000x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bitsLt_bf16_f32 : FTy.bits .bf16 < FTy.bits .f32
  bcast_S_S1000000 : S_.BroadcastsInDim S1000000 (![] : Fin 0 → Fin S1000000.rank)
  bcast_S1000000_S1000000x1_0 : S1000000.BroadcastsInDim S1000000x1 (![0] : Fin 1 → Fin S1000000x1.rank)
  transposes_S64x128_S128x64_1_0 : S64x128.Transposes [1, 0] S128x64
  shapeCasts_S64_S1x64 : S64.ShapeCasts S1x64
  shapeCasts_S1_S1x1 : S1.ShapeCasts S1x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  broadcasts_S5000x1_S5000x128 : S5000x1.Broadcasts S5000x128
  inb_S5000x1_S5000x1_0_0 : ∀ a, (![0, 0] : Fin 2 → Nat) a + S5000x1.size a ≤ S5000x1.size a
  h_S5000x1 : 0 < S5000x1.numel
  bcast_S_S200000x128 : S_.BroadcastsInDim S200000x128 (![] : Fin 0 → Fin S200000x128.rank)
  transposes_S128x128_S128x128_1_0 : S128x128.Transposes [1, 0] S128x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  gather_S200000x128_S1000000x1_S1000000x128_1_0_n_n_0_1_1128_wf : GatherDims.WF S200000x128 S1000000x1 S1000000x128 [1] [0] [] [0] [] 1 ![1, 128]
  gather_S401x128_S1000000x1_S1000000x128_1_0_n_n_0_1_1128_wf : GatherDims.WF S401x128 S1000000x1 S1000000x128 [1] [0] [] [0] [] 1 ![1, 128]
  gather_S64x128_S1000000x1_S1000000x128_1_0_n_n_0_1_1128_wf : GatherDims.WF S64x128 S1000000x1 S1000000x128 [1] [0] [] [0] [] 1 ![1, 128]
  dot_S5000x128_S128x64_S5000x64_1_0_0_1_n_n_wf : DotDims.WF S5000x128 S128x64 S5000x64 [1] [0] [0] [1] [] []
  scatter_S200000x128_S1000000x1_S1000000x128_1_0_0_1_wf : ScatterDims.WF S200000x128 S1000000x1 S1000000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S1000000x128.size a
  hwx0_0 : ∀ i : grid0.Coords, EltTy.bits .bf16 = 32 ∨ (Rect.block (s := S1000000x128) S5000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S1000000x128.size a
  hwx0_1 : ∀ i : grid0.Coords, EltTy.bits .bf16 = 32 ∨ (Rect.block (s := S1000000x128) S5000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S1000000x128.size a
  hwx0_2 : ∀ i : grid0.Coords, EltTy.bits .bf16 = 32 ∨ (Rect.block (s := S1000000x128) S5000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .bf16 = 32 ∨ (Rect.block (s := S128x64) S128x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .bf16 = 32 ∨ (Rect.block (s := S128x64) S128x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .bf16 = 32 ∨ (Rect.block (s := S128x64) S128x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .bf16 = 32 ∨ (Rect.block (s := S128x64) S128x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x128.size a ≤ S1000000x128.size a
  hwx0_10 : ∀ i : grid0.Coords, EltTy.bits .f32 = 32 ∨ (Rect.block (s := S1000000x128) S5000x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x1.size a ≤ S1000000x1.size a
  hwx0_11 : ∀ i : grid0.Coords, EltTy.bits .f32 = 32 ∨ (Rect.block (s := S1000000x1) S5000x1.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S200000x128.size a
  hwx1_0 : ∀ i : grid1.Coords, EltTy.bits .f32 = 32 ∨ (Rect.block (s := S200000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S200000x128.size a
  hwx1_2 : ∀ i : grid1.Coords, EltTy.bits .f32 = 32 ∨ (Rect.block (s := S200000x128) S10000x128.size (cc1_transform_2 i) (hinb1_2 i)).WholeWords (EltTy.packing .f32)

variable [Facts₀]

def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def gather_S401x128_S1000000x1_S1000000x128_1_0_n_n_0_1_1128 : GatherDims S401x128 S1000000x1 S1000000x128 where
  offsetDims := [1]
  collapsedSliceDims := [0]
  operandBatchingDims := []
  startIndicesBatchingDims := []
  startIndexMap := [0]
  indexVectorDim := 1
  sliceSizes := ![1, 128]
  wf := gather_S401x128_S1000000x1_S1000000x128_1_0_n_n_0_1_1128_wf
def gather_S64x128_S1000000x1_S1000000x128_1_0_n_n_0_1_1128 : GatherDims S64x128 S1000000x1 S1000000x128 where
  offsetDims := [1]
  collapsedSliceDims := [0]
  operandBatchingDims := []
  startIndicesBatchingDims := []
  startIndexMap := [0]
  indexVectorDim := 1
  sliceSizes := ![1, 128]
  wf := gather_S64x128_S1000000x1_S1000000x128_1_0_n_n_0_1_1128_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def scatter_S200000x128_S1000000x1_S1000000x128_1_0_0_1 : ScatterDims S200000x128 S1000000x1 S1000000x128 where
  updateWindowDims := [1]
  insertedWindowDims := [0]
  scatterDimsToOperandDims := [0]
  indexVectorDim := 1
  wf := scatter_S200000x128_S1000000x1_S1000000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v9) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v31) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v33) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v34_0) S5000x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v34_1) S5000x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v37) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v40) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S200000x128 : Shape := ⟨2, ![200000, 128]⟩
abbrev S64x128 : Shape := ⟨2, ![64, 128]⟩
abbrev S401x128 : Shape := ⟨2, ![401, 128]⟩
abbrev S64 : Shape := ⟨1, ![64]⟩
abbrev S1x64 : Shape := ⟨2, ![1, 64]⟩
abbrev S1 : Shape := ⟨1, ![1]⟩
abbrev S128x128 : Shape := ⟨2, ![128, 128]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S1000000x64 : Shape := ⟨2, ![1000000, 64]⟩
abbrev S1x1 : Shape := ⟨2, ![1, 1]⟩

abbrev nBuf : Space → Nat
  | .hbm => 79
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S64x128, .f32⟩
  | .hbm, ⟨2, _⟩ => ⟨S401x128, .f32⟩
  | .hbm, ⟨3, _⟩ => ⟨S64x128, .f32⟩
  | .hbm, ⟨4, _⟩ => ⟨S64, .f32⟩
  | .hbm, ⟨5, _⟩ => ⟨S64x128, .f32⟩
  | .hbm, ⟨6, _⟩ => ⟨S64x128, .f32⟩
  | .hbm, ⟨7, _⟩ => ⟨S64x128, .f32⟩
  | .hbm, ⟨8, _⟩ => ⟨S1x64, .f32⟩
  | .hbm, ⟨9, _⟩ => ⟨S1, .f32⟩
  | .hbm, ⟨10, _⟩ => ⟨S128x128, .f32⟩
  | .hbm, ⟨11, _⟩ => ⟨S1000000, .i32⟩
  | .hbm, ⟨12, _⟩ => ⟨S1000000, .i32⟩
  | .hbm, ⟨13, _⟩ => ⟨S1000000, .i32⟩
  | .hbm, ⟨14, _⟩ => ⟨S1000000, .i32⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S1000000x1, .i32⟩
  | .hbm, ⟨23, _⟩ => ⟨S1000000x128, .f32⟩
  | .hbm, ⟨24, _⟩ => ⟨S_, .i32⟩
  | .hbm, ⟨25, _⟩ => ⟨S1000000, .i32⟩
  | .hbm, ⟨26, _⟩ => ⟨S1000000, .i1⟩
  | .hbm, ⟨27, _⟩ => ⟨S_, .i32⟩
  | .hbm, ⟨28, _⟩ => ⟨S1000000, .i32⟩
  | .hbm, ⟨29, _⟩ => ⟨S1000000, .i32⟩
  | .hbm, ⟨30, _⟩ => ⟨S1000000, .i32⟩
  | .hbm, ⟨31, _⟩ => ⟨S1000000x1, .i32⟩
  | .hbm, ⟨32, _⟩ => ⟨S1000000x128, .f32⟩
  | .hbm, ⟨33, _⟩ => ⟨S_, .i32⟩
  | .hbm, ⟨34, _⟩ => ⟨S1000000, .i32⟩
  | .hbm, ⟨35, _⟩ => ⟨S1000000, .i1⟩
  | .hbm, ⟨36, _⟩ => ⟨S_, .i32⟩
  | .hbm, ⟨37, _⟩ => ⟨S1000000, .i32⟩
  | .hbm, ⟨38, _⟩ => ⟨S1000000, .i32⟩
  | .hbm, ⟨39, _⟩ => ⟨S1000000, .i32⟩
  | .hbm, ⟨40, _⟩ => ⟨S1000000x1, .i32⟩
  | .hbm, ⟨41, _⟩ => ⟨S1000000x128, .f32⟩
  | .hbm, ⟨42, _⟩ => ⟨S1000000x64, .f32⟩
  | .hbm, ⟨43, _⟩ => ⟨S1x64, .f32⟩
  | .hbm, ⟨44, _⟩ => ⟨S1000000x64, .f32⟩
  | .hbm, ⟨45, _⟩ => ⟨S1000000x64, .f32⟩
  | .hbm, ⟨46, _⟩ => ⟨S1000000x64, .f32⟩
  | .hbm, ⟨47, _⟩ => ⟨S1000000x64, .f32⟩
  | .hbm, ⟨48, _⟩ => ⟨S1000000x64, .f32⟩
  | .hbm, ⟨49, _⟩ => ⟨S1000000x64, .f32⟩
  | .hbm, ⟨50, _⟩ => ⟨S1000000x128, .f32⟩
  | .hbm, ⟨51, _⟩ => ⟨S1000000x64, .f32⟩
  | .hbm, ⟨52, _⟩ => ⟨S1000000x64, .f32⟩
  | .hbm, ⟨53, _⟩ => ⟨S_, .f32⟩
  | .hbm, ⟨54, _⟩ => ⟨S1000000x64, .f32⟩
  | .hbm, ⟨55, _⟩ => ⟨S1000000x64, .f32⟩
  | .hbm, ⟨56, _⟩ => ⟨S1000000x1, .f32⟩
  | .hbm, ⟨57, _⟩ => ⟨S1x1, .f32⟩
  | .hbm, ⟨58, _⟩ => ⟨S1000000x1, .f32⟩
  | .hbm, ⟨59, _⟩ => ⟨S1000000x1, .f32⟩
  | .hbm, ⟨60, _⟩ => ⟨S1000000x1, .f32⟩
  | .hbm, ⟨61, _⟩ => ⟨S1000000x1, .f32⟩
  | .hbm, ⟨62, _⟩ => ⟨S_, .f32⟩
  | .hbm, ⟨63, _⟩ => ⟨S1000000x1, .f32⟩
  | .hbm, ⟨64, _⟩ => ⟨S1000000x1, .f32⟩
  | .hbm, ⟨65, _⟩ => ⟨S_, .f32⟩
  | .hbm, ⟨66, _⟩ => ⟨S1000000x1, .f32⟩
  | .hbm, ⟨67, _⟩ => ⟨S1000000x1, .f32⟩
  | .hbm, ⟨68, _⟩ => ⟨S1000000x128, .f32⟩
  | .hbm, ⟨69, _⟩ => ⟨S1000000x128, .f32⟩
  | .hbm, ⟨70, _⟩ => ⟨S1000000x128, .f32⟩
  | .hbm, ⟨71, _⟩ => ⟨S_, .f32⟩
  | .hbm, ⟨72, _⟩ => ⟨S200000x128, .f32⟩
  | .hbm, ⟨73, _⟩ => ⟨S1000000x1, .i32⟩
  | .hbm, ⟨74, _⟩ => ⟨S200000x128, .f32⟩
  | .hbm, ⟨75, _⟩ => ⟨S200000x128, .f32⟩
  | .hbm, ⟨76, _⟩ => ⟨S_, .f32⟩
  | .hbm, ⟨77, _⟩ => ⟨S200000x128, .f32⟩
  | .hbm, ⟨78, _⟩ => ⟨S200000x128, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c_1 : Ref sig .tc := ⟨.hbm, 24, rfl⟩
abbrev main_v7 : Ref sig .tc := ⟨.hbm, 25, rfl⟩
abbrev main_v8 : Ref sig .tc := ⟨.hbm, 26, rfl⟩
abbrev main_c_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c_3 : Ref sig .tc := ⟨.hbm, 33, rfl⟩
abbrev main_v14 : Ref sig .tc := ⟨.hbm, 34, rfl⟩
abbrev main_v15 : Ref sig .tc := ⟨.hbm, 35, rfl⟩
abbrev main_c_4 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_call0_cst : Ref sig .tc := ⟨.hbm, 53, rfl⟩
abbrev main_call0_v0 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst : Ref sig .tc := ⟨.hbm, 62, rfl⟩
abbrev main_v39 : Ref sig .tc := ⟨.hbm, 63, rfl⟩
abbrev main_v40 : Ref sig .tc := ⟨.hbm, 64, rfl⟩
abbrev main_cst_5 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_6 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_call1_cst : Ref sig .tc := ⟨.hbm, 76, rfl⟩
abbrev main_call1_v0 : Ref sig .tc := ⟨.hbm, 77, rfl⟩
abbrev main_v50 : Ref sig .tc := ⟨.hbm, 78, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  bcast_S_S1000000x1 : S_.BroadcastsInDim S1000000x1 (![] : Fin 0 → Fin S1000000x1.rank)
  bcast_S1000000x1_S1000000x128_0_1 : S1000000x1.BroadcastsInDim S1000000x128 (![0, 1] : Fin 2 → Fin S1000000x128.rank)
  bcast_S_S200000x128 : S_.BroadcastsInDim S200000x128 (![] : Fin 0 → Fin S200000x128.rank)
  gather_S200000x128_S1000000x1_S1000000x128_1_0_n_n_0_1_1128_wf : GatherDims.WF S200000x128 S1000000x1 S1000000x128 [1] [0] [] [0] [] 1 ![1, 128]
  gather_S401x128_S1000000x1_S1000000x128_1_0_n_n_0_1_1128_wf : GatherDims.WF S401x128 S1000000x1 S1000000x128 [1] [0] [] [0] [] 1 ![1, 128]
  gather_S64x128_S1000000x1_S1000000x128_1_0_n_n_0_1_1128_wf : GatherDims.WF S64x128 S1000000x1 S1000000x128 [1] [0] [] [0] [] 1 ![1, 128]
  dot_S1000000x128_S64x128_S1000000x64_1_1_0_0_n_n_wf : DotDims.WF S1000000x128 S64x128 S1000000x64 [1] [1] [0] [0] [] []
  dot_S1000000x64_S1x64_S1000000x1_1_1_0_0_n_n_wf : DotDims.WF S1000000x64 S1x64 S1000000x1 [1] [1] [0] [0] [] []
  scatter_S200000x128_S1000000x1_S1000000x128_1_0_0_1_wf : ScatterDims.WF S200000x128 S1000000x1 S1000000x128 [1] [0] [0] 1
  dot_S200000x128_S128x128_S200000x128_1_1_0_0_n_n_wf : DotDims.WF S200000x128 S128x128 S200000x128 [1] [1] [0] [0] [] []

variable [Facts₀]

def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def gather_S401x128_S1000000x1_S1000000x128_1_0_n_n_0_1_1128 : GatherDims S401x128 S1000000x1 S1000000x128 where
  offsetDims := [1]
  collapsedSliceDims := [0]
  operandBatchingDims := []
  startIndicesBatchingDims := []
  startIndexMap := [0]
  indexVectorDim := 1
  sliceSizes := ![1, 128]
  wf := gather_S401x128_S1000000x1_S1000000x128_1_0_n_n_0_1_1128_wf
def gather_S64x128_S1000000x1_S1000000x128_1_0_n_n_0_1_1128 : GatherDims S64x128 S1000000x1 S1000000x128 where
  offsetDims := [1]
  collapsedSliceDims := [0]
  operandBatchingDims := []
  startIndicesBatchingDims := []
  startIndexMap := [0]
  indexVectorDim := 1
  sliceSizes := ![1, 128]
  wf := gather_S64x128_S1000000x1_S1000000x128_1_0_n_n_0_1_1128_wf
def dot_S1000000x128_S64x128_S1000000x64_1_1_0_0_n_n : DotDims S1000000x128 S64x128 S1000000x64 where
  lhsContracting := [1]
  rhsContracting := [1]
  lhsNonContracting := [0]
  rhsNonContracting := [0]
  lhsBatch := []
  rhsBatch := []
  wf := dot_S1000000x128_S64x128_S1000000x64_1_1_0_0_n_n_wf
def dot_S1000000x64_S1x64_S1000000x1_1_1_0_0_n_n : DotDims S1000000x64 S1x64 S1000000x1 where
  lhsContracting := [1]
  rhsContracting := [1]
  lhsNonContracting := [0]
  rhsNonContracting := [0]
  lhsBatch := []
  rhsBatch := []
  wf := dot_S1000000x64_S1x64_S1000000x1_1_1_0_0_n_n_wf
def scatter_S200000x128_S1000000x1_S1000000x128_1_0_0_1 : ScatterDims S200000x128 S1000000x1 S1000000x128 where
  updateWindowDims := [1]
  insertedWindowDims := [0]
  scatterDimsToOperandDims := [0]
  indexVectorDim := 1
  wf := scatter_S200000x128_S1000000x1_S1000000x128_1_0_0_1_wf
def dot_S200000x128_S128x128_S200000x128_1_1_0_0_n_n : DotDims S200000x128 S128x128 S200000x128 where
  lhsContracting := [1]
  rhsContracting := [1]
  lhsNonContracting := [0]
  rhsNonContracting := [0]
  lhsBatch := []
  rhsBatch := []
  wf := dot_S200000x128_S128x128_S200000x128_1_1_0_0_n_n_wf

class Facts : Prop extends Facts₀ where

variable [Facts]
-- ==== Proof.LibBlock.lean ====
/-
  Blocks read at an index: the vocabulary the three regions share.

  * `hz`: the zero offsets of a rank-2 rectangle, spelt as the constant function;
  * `matmul_zero_ix2`: a plain matrix product `[M, K] × [K, N]` accumulated into the zero splat, read at `(p, q)`, is
    the sum over the contracted coordinate `k : Fin K` of `lhs (p, k) * rhs (k, q)` (any `K`);
  * `lhsIdx_val_row`, `rhsIdx_val_col`: the non-contracted coordinates of the two operand indices.
  (A `[1, n]` row broadcast over `m` rows, read at `(p, c)`, is the library's `ValueIdx.broadcastTo_1b_ab_apply`.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibBlock

open Idealize.ShloMosaic Idealize.ShloMosaic.ValueIdx

/-- The zero offsets of a rank-2 rectangle are the constant function `0`. -/
theorem hz : (![0, 0] : Fin 2 → Nat) = fun _ => 0 := funext fun a => by fin_cases a <;> rfl

section Matmul
variable {M K N : Nat} (D : DotDims ⟨2, ![M, K]⟩ ⟨2, ![K, N]⟩ ⟨2, ![M, N]⟩)

/-- With no batch axis and the left operand's rows its one free axis, the left operand index has the result's row. -/
theorem lhsIdx_val_row (hlb : D.lhsBatch = []) (hln : D.lhsNonContracting = [0])
    (j : (⟨2, ![M, N]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

/-- With no batch axis, one free axis on the left and the right operand's columns its one free axis, the right operand
    index has the result's column. -/
theorem rhsIdx_val_col (hlb : D.lhsBatch = []) (hln : D.lhsNonContracting = [0]) (hrb : D.rhsBatch = [])
    (hrn : D.rhsNonContracting = [1])
    (j : (⟨2, ![M, N]⟩ : Shape).Idx) (k : D.contr.Idx) : (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

/-- A plain matrix product `[M, K] × [K, N]` into the zero accumulator, read at `(p, q)`:
    `∑ₖ lhs (p, k) * rhs (k, q)`, the sum over the contracted coordinate. -/
theorem matmul_zero_ix2 (hlc : D.lhsContracting = [1]) (hrc : D.rhsContracting = [0])
    (hlb : D.lhsBatch = []) (hln : D.lhsNonContracting = [0]) (hrb : D.rhsBatch = []) (hrn : D.rhsNonContracting = [1])
    {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.matmul_constant_zero_apply D prec lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_val_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhsIdx_val_col D hlb hln hrb hrn _ _)
  rw [el, er]

end Matmul

end Cert.LibBlock

end
-- ==== Proof.LibRowSum.lean ====
/-
  A lane sum read at a row: a float `vector.multi_reduction <add>` of an `[a, b]` vector over its second axis, at the
  ideal values, reads at row `p` the sum over the lanes `k : Fin b` of the entries `(p, k)` — for any extents and
  any float format, whatever the (neutral) accumulator word.
-/
import Idealize.ShloMosaic.Lib.ValueIdx
import Idealize.ShloMosaic.PureOps.Ideal.Laws

noncomputable section

open scoped BigOperators

namespace Cert.LibRowSum

open Idealize.ShloMosaic Idealize.ShloMosaic.ValueIdx

/-- The sum of an `[a, b]` vector along its lanes, read at row `p`: `∑ₖ src (p, k)`. -/
theorem multiReduction_add_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

end Cert.LibRowSum

end
-- ==== Proof.LibColumn.lean ====
/-
  A vector laid out as a column and spread over lanes, read at an index: the two layout steps of a reduction that
  keeps its axis (a row sum or row maximum put back beside the rows it came from).

  * `shapeCast_a_a1_apply`: an `[a]` vector cast to the column `[a, 1]` reads, at `(p, u)`, its entry `p`;
  * `broadcastTo_a1_ab_apply`: a column `[a, 1]` broadcast to `[a, b]` reads, at `(p, c)`, the column's entry `p`.
  Both for any extents `a`, `b` and any element type.
-/
import Idealize.ShloMosaic.Lib.Pipeline.Value
import Idealize.ShloMosaic.Lib.ValueIdx

namespace Cert.LibColumn

open Idealize.ShloMosaic Idealize.ShloMosaic.ValueIdx

variable {α : Type}

/-- An `[a]` vector laid out as a column `[a, 1]` reads, at `(p, u)`, its entry `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` spread over `b` lanes reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.EdgeBlock.lean ====
/-
  One block of the edge kernel, read at an index.

  For an edge with feature rows `hs`, `hr`, `hq` (vectors of length 128) the kernel computes, per attention unit `a`,
    pre a = (((∑ d, hs d * WsT (d, a)) + b (0, a)) + ∑ d, hr d * WrT (d, a)) + (∑ d, hq d * WqT (d, a)) + ∑ d, (hr d * hq d) * WqrT (d, a),
  the gate `logistic ((∑ a, max (pre a) 0 * wa (0, a)) + wb (0, 0))`, and the message `gate * (hs d * hr d)`.
  Here the weights are the transposed [128, 64] matrices the kernel is handed, and every float operation is the exact one
  on the extended reals: a matrix product into the zero accumulator is the sum over the contracted coordinate, the lane
  sum of a [5000, 64] vector is the sum over its 64 lanes, the keep-dims cast and the two broadcasts only re-lay values.
  The second kernel's block is `max (∑ d, x (p, d) * W (d, o)) 0`.
-/
import proofs.«124359_j80092550136107_1_alg».proof.Proof.Gen.KernelIdeal.Frame
import proofs.«124359_j80092550136107_1_alg».proof.Proof.LibBlock
import proofs.«124359_j80092550136107_1_alg».proof.Proof.LibRowSum
import proofs.«124359_j80092550136107_1_alg».proof.Proof.LibColumn
import Idealize.ShloMosaic.Lib.ValueLayout

noncomputable section

open scoped BigOperators

namespace Cert.KernelIdeal.Edge

open Cert.KernelIdeal Cert.KernelIdeal.Gen Idealize.ShloMosaic Idealize.ShloMosaic.ValueIdx

/-- The f32 word of zero, as the extended real it denotes (the same word on both sides of the claim: never evaluated). -/
abbrev z32 : EReal := Ideal.ofBits .f32 0x00000000#32

/-- The pre-activation of attention unit `a` for one edge, from the edge's three feature rows and the transposed weights. -/
def preK (hs hr hq : Fin 128 → EReal) (WsT WrT WqT WqrT : S128x64.Idx → EReal) (b : S1x64.Idx → EReal) (a : Fin 64) : EReal :=
  ((((∑ d : Fin 128, hs d * WsT (ix2 d a)) + b (ix2 (0 : Fin 1) a)) + ∑ d : Fin 128, hr d * WrT (ix2 d a))
      + ∑ d : Fin 128, hq d * WqT (ix2 d a)) + ∑ d : Fin 128, (hr d * hq d) * WqrT (ix2 d a)

/-- The edge's gate: the logistic function of the weighted sum of the rectified pre-activations plus the bias. -/
def gateK (hs hr hq : Fin 128 → EReal) (WsT WrT WqT WqrT : S128x64.Idx → EReal) (b wa : S1x64.Idx → EReal)
    (wb : S1x1.Idx → EReal) : EReal :=
  Ideal.logistic ((∑ a : Fin 64, max (preK hs hr hq WsT WrT WqT WqrT b a) z32 * wa (ix2 (0 : Fin 1) a))
    + wb (ix2 (0 : Fin 1) (0 : Fin 1)))

/-- The four products and the bias of a block of 5000 edges, read at edge `p` and unit `a`. -/
theorem pre_apply (X0 X1 X2 : S5000x128.Idx → EReal) (W3 W5 W6 W7 : S128x64.Idx → EReal) (b4 : S1x64.Idx → EReal)
    (p : Fin 5000) (a : Fin 64) :
    addf (addf (addf (addf
        (matmul dot_S5000x128_S128x64_S5000x64_1_0_0_1_n_n none (φ₁ := .bf16) (φ₂ := .bf16) X0 W3 (constant (F := Ideal) S5000x64 .f32 0x00000000#32))
        (broadcastTo S5000x64 (b4 : FVec Ideal S1x64 .f32) broadcasts_S1x64_S5000x64))
        (matmul dot_S5000x128_S128x64_S5000x64_1_0_0_1_n_n none (φ₁ := .bf16) (φ₂ := .bf16) X1 W5 (constant (F := Ideal) S5000x64 .f32 0x00000000#32)))
        (matmul dot_S5000x128_S128x64_S5000x64_1_0_0_1_n_n none (φ₁ := .bf16) (φ₂ := .bf16) X2 W6 (constant (F := Ideal) S5000x64 .f32 0x00000000#32)))
        (matmul dot_S5000x128_S128x64_S5000x64_1_0_0_1_n_n none (φ₁ := .bf16) (φ₂ := .bf16) (mulf (F := Ideal) (φ := .bf16) X1 X2) W7 (constant (F := Ideal) S5000x64 .f32 0x00000000#32))
        (ix2 p a)
      = preK (fun d => X0 (ix2 p d)) (fun d => X1 (ix2 p d)) (fun d => X2 (ix2 p d)) W3 W5 W6 W7 b4 a := by
  unfold preK
  refine congrArg₂ (· + ·) (congrArg₂ (· + ·) (congrArg₂ (· + ·) (congrArg₂ (· + ·) ?_ ?_) ?_) ?_) ?_
  · exact Cert.LibBlock.matmul_zero_ix2 dot_S5000x128_S128x64_S5000x64_1_0_0_1_n_n rfl rfl rfl rfl rfl rfl none X0 W3 p a
  · exact broadcastTo_1b_ab_apply b4 broadcasts_S1x64_S5000x64 p a
  · exact Cert.LibBlock.matmul_zero_ix2 dot_S5000x128_S128x64_S5000x64_1_0_0_1_n_n rfl rfl rfl rfl rfl rfl none X1 W5 p a
  · exact Cert.LibBlock.matmul_zero_ix2 dot_S5000x128_S128x64_S5000x64_1_0_0_1_n_n rfl rfl rfl rfl rfl rfl none X2 W6 p a
  · exact Cert.LibBlock.matmul_zero_ix2 dot_S5000x128_S128x64_S5000x64_1_0_0_1_n_n rfl rfl rfl rfl rfl rfl none (mulf (F := Ideal) (φ := .bf16) X1 X2) W7 p a

/-- The weighted lane sum of the rectified pre-activations (the gate's argument before the bias), at edge `p` of a block. -/
theorem pay5_apply (x0 x1 x2 : Vec Ideal S5000x128 .bf16) (x3 : Vec Ideal S128x64 .bf16) (x4 : Vec Ideal S1x64 .f32)
    (x5 x6 x7 : Vec Ideal S128x64 .bf16) (x8 : Vec Ideal S1x64 .f32) (p : Fin 5000) (u : Fin 1) :
    k0_pay5 x0 x1 x2 x3 x4 x5 x6 x7 x8 (ix2 p u)
      = ∑ a : Fin 64, max (preK (fun d => x0 (ix2 p d)) (fun d => x1 (ix2 p d)) (fun d => x2 (ix2 p d)) x3 x5 x6 x7 x4 a) z32
          * x8 (ix2 (0 : Fin 1) a) := by
  unfold k0_pay5 k0_pay3 k0_pay4
  simp only [shapeCast_self]
  refine (Cert.LibColumn.shapeCast_a_a1_apply _ shapeCasts_S5000_S5000x1 p u).trans ?_
  refine (Cert.LibRowSum.multiReduction_add_lanes_apply _ _ reduces_S5000x64_S5000 (.inl rfl) rfl p).trans ?_
  refine Finset.sum_congr rfl fun a _ => ?_
  refine congrArg₂ (· * ·) (congrArg₂ max ?_ rfl) ?_
  · exact pre_apply x0 x1 x2 x3 x5 x6 x7 x4 p a
  · exact broadcastTo_1b_ab_apply x8 broadcasts_S1x64_S5000x64 p a

/-- The gate of edge `p` of a block: the logistic function of the lane sum plus the bias. -/
theorem pay1_apply (v32 : FVec Ideal S5000x1 .f32) (x9 : Vec Ideal S1x1 .f32) (p : Fin 5000) (u : Fin 1) :
    k0_pay1 v32 x9 (ix2 p u) = Ideal.logistic (v32 (ix2 p u) + x9 (ix2 (0 : Fin 1) u)) := by
  unfold k0_pay1
  simp only [shapeCast_self]
  show Ideal.logistic (v32 (ix2 p u) + broadcastTo S5000x1 x9 broadcasts_S1x1_S5000x1 (ix2 p u)) = _
  rw [broadcastTo_1b_ab_apply x9 broadcasts_S1x1_S5000x1 p u]

/-- The message of edge `p` of a block at feature `d`: the gate times the product of the two gathered features. -/
theorem pay2_apply (v1 v3 : FVec Ideal S5000x128 .bf16) (v32 : FVec Ideal S5000x1 .f32) (x9 : Vec Ideal S1x1 .f32)
    (p : Fin 5000) (d : Fin 128) :
    k0_pay2 v1 v3 v32 x9 (ix2 p d) = k0_pay1 v32 x9 (ix2 p (0 : Fin 1)) * (v1 (ix2 p d) * v3 (ix2 p d)) := by
  unfold k0_pay2
  show broadcastTo S5000x128 (k0_pay1 v32 x9) broadcasts_S5000x1_S5000x128 (ix2 p d) * (v1 (ix2 p d) * v3 (ix2 p d)) = _
  rw [Cert.LibColumn.broadcastTo_a1_ab_apply (k0_pay1 v32 x9) broadcasts_S5000x1_S5000x128 p d]

/-- The block of gates the first kernel leaves, at edge `p`. -/
theorem out0_11_apply (x0 x1 x2 : Vec Ideal S5000x128 .bf16) (x3 : Vec Ideal S128x64 .bf16) (x4 : Vec Ideal S1x64 .f32)
    (x5 x6 x7 : Vec Ideal S128x64 .bf16) (x8 : Vec Ideal S1x64 .f32) (x9 : Vec Ideal S1x1 .f32) (p : Fin 5000) :
    out0_11 x0 x1 x2 x3 x4 x5 x6 x7 x8 x9 (ix2 p (0 : Fin 1))
      = gateK (fun d => x0 (ix2 p d)) (fun d => x1 (ix2 p d)) (fun d => x2 (ix2 p d)) x3 x5 x6 x7 x4 x8 x9 := by
  unfold out0_11
  rw [View.canon_unit_zero Cert.LibBlock.hz]
  simp only [View.ld_unit_zero (S := S5000x128) Cert.LibBlock.hz, View.ld_unit_zero (S := S128x64) Cert.LibBlock.hz,
    View.ld_unit_zero (S := S1x64) Cert.LibBlock.hz, View.ld_unit_zero (S := S1x1) Cert.LibBlock.hz]
  rw [pay1_apply, pay5_apply]
  rfl

/-- The block of messages the first kernel leaves, at edge `p` and feature `d`. -/
theorem out0_10_apply (x0 x1 x2 : Vec Ideal S5000x128 .bf16) (x3 : Vec Ideal S128x64 .bf16) (x4 : Vec Ideal S1x64 .f32)
    (x5 x6 x7 : Vec Ideal S128x64 .bf16) (x8 : Vec Ideal S1x64 .f32) (x9 : Vec Ideal S1x1 .f32) (p : Fin 5000) (d : Fin 128) :
    out0_10 x0 x1 x2 x3 x4 x5 x6 x7 x8 x9 (ix2 p d)
      = gateK (fun d => x0 (ix2 p d)) (fun d => x1 (ix2 p d)) (fun d => x2 (ix2 p d)) x3 x5 x6 x7 x4 x8 x9
          * (x0 (ix2 p d) * x1 (ix2 p d)) := by
  unfold out0_10
  rw [View.canon_unit_zero Cert.LibBlock.hz]
  simp only [View.ld_unit_zero (S := S5000x128) Cert.LibBlock.hz, View.ld_unit_zero (S := S128x64) Cert.LibBlock.hz,
    View.ld_unit_zero (S := S1x64) Cert.LibBlock.hz, View.ld_unit_zero (S := S1x1) Cert.LibBlock.hz]
  rw [pay2_apply, pay1_apply, pay5_apply]
  unfold k0_pay3 k0_pay4
  simp only [shapeCast_self]
  rfl

/-- The block the second kernel leaves, at node `p` and output feature `o`: the rectified product with the transposed
    weight matrix. -/
theorem out1_2_apply (x0 : Vec Ideal S10000x128 .f32) (x1 : Vec Ideal S128x128 .bf16) (p : Fin 10000) (o : Fin 128) :
    out1_2 x0 x1 (ix2 p o) = max (∑ d : Fin 128, x0 (ix2 p d) * x1 (ix2 d o)) z32 := by
  unfold out1_2
  rw [View.canon_unit_zero Cert.LibBlock.hz]
  simp only [View.ld_unit_zero (S := S10000x128) Cert.LibBlock.hz, View.ld_unit_zero (S := S128x128) Cert.LibBlock.hz]
  unfold k1_pay1
  simp only [shapeCast_self]
  refine congrArg₂ max ?_ rfl
  exact Cert.LibBlock.matmul_zero_ix2 dot_S10000x128_S128x128_S10000x128_1_0_0_1_n_n rfl rfl rfl rfl rfl rfl none
    (truncf (F := Ideal) .bf16 x0 bitsLt_bf16_f32) x1 p o

end Cert.KernelIdeal.Edge

end
-- ==== Proof.Blocks.lean ====
/-
  From blocks to whole arrays.

  The first kernel runs over 200 blocks of 5000 edges: point `t` reads rows `5000 t … 5000 t + 4999` of the three gathered
  feature arrays, reads the seven small operands whole, and writes rows `5000 t …` of the message array and of the gate
  column. The second kernel runs over 20 blocks of 10000 nodes in the same way. Every output row lies in exactly the
  block `row / block size`, so each output array ends as ONE function of the arrays the kernel was entered with:
  the message array at `(e, d)` is `gate e * (hs (e, d) * hr (e, d))`, the gate column at `e` is `gate e`, and the node
  array at `(v, o)` is `max (∑ d, agg (v, d) * WhT (d, o)) 0`.
-/
import proofs.«124359_j80092550136107_1_alg».proof.Proof.EdgeBlock
import Idealize.ShloMosaic.Lib.Pipeline.Value

noncomputable section

open scoped BigOperators

namespace Cert.KernelIdeal.Edge

open Cert.KernelIdeal Cert.KernelIdeal.Gen Idealize.ShloMosaic Idealize.ShloMosaic.TcCoe Idealize.ShloMosaic.ValueIdx
open Idealize.SL.Sem
open Idealize.ShloMosaic.Pipeline (Dat)

/-- The first coordinate of a rank-2 index, at its literal extent. -/
abbrev row {n0 n1 : Nat} (i : (⟨2, ![n0, n1]⟩ : Shape).Idx) : Fin n0 := ⟨(i 0).val, idx2_lt0 i⟩
/-- The second coordinate of a rank-2 index, at its literal extent. -/
abbrev col {n0 n1 : Nat} (i : (⟨2, ![n0, n1]⟩ : Shape).Idx) : Fin n1 := ⟨(i 1).val, idx2_lt1 i⟩

/-- The gate of edge `e`, from the three gathered feature arrays and the kernel's small operands. -/
def gateAt (hs hr hq : S1000000x128.Idx → EReal) (WsT WrT WqT WqrT : S128x64.Idx → EReal) (b wa : S1x64.Idx → EReal)
    (wb : S1x1.Idx → EReal) (e : Fin 1000000) : EReal :=
  gateK (fun d => hs (ix2 e d)) (fun d => hr (ix2 e d)) (fun d => hq (ix2 e d)) WsT WrT WqT WqrT b wa wb

/-- The message array: each edge's gate times the product of its two gathered features. -/
def msgK (hs hr hq : S1000000x128.Idx → EReal) (WsT WrT WqT WqrT : S128x64.Idx → EReal) (b wa : S1x64.Idx → EReal)
    (wb : S1x1.Idx → EReal) : S1000000x128.Idx → EReal :=
  fun i => gateAt hs hr hq WsT WrT WqT WqrT b wa wb (row i) * (hs i * hr i)

/-- The gate column. -/
def alphaK (hs hr hq : S1000000x128.Idx → EReal) (WsT WrT WqT WqrT : S128x64.Idx → EReal) (b wa : S1x64.Idx → EReal)
    (wb : S1x1.Idx → EReal) : S1000000x1.Idx → EReal :=
  fun i => gateAt hs hr hq WsT WrT WqT WqrT b wa wb (row i)

/-- The node array: the rectified product of the aggregated messages with the transposed weight matrix. -/
def outK (agg : S200000x128.Idx → EReal) (WhT : S128x128.Idx → EReal) : S200000x128.Idx → EReal :=
  fun i => max (∑ d : Fin 128, agg (ix2 (row i) d) * WhT (ix2 d (col i))) z32

variable (V : (c : Dev nD) → (b : Ref sig .tc) → Buf (Elt Ideal) ((c : Thread nD τ).loc b))

/-! ## The first kernel's index maps, decided over its 200 points -/

theorem idx0_w0 : ∀ t : Fin cfg0.N, win0_0.index t (0 : Fin 2) = t.val ∧ win0_0.index t (1 : Fin 2) = 0 :=
  (by decide +kernel : ∀ t : Fin grid0.N, _)
theorem idx0_w1 : ∀ t : Fin cfg0.N, win0_1.index t (0 : Fin 2) = t.val ∧ win0_1.index t (1 : Fin 2) = 0 :=
  (by decide +kernel : ∀ t : Fin grid0.N, _)
theorem idx0_w2 : ∀ t : Fin cfg0.N, win0_2.index t (0 : Fin 2) = t.val ∧ win0_2.index t (1 : Fin 2) = 0 :=
  (by decide +kernel : ∀ t : Fin grid0.N, _)
theorem idx0_w10 : ∀ t : Fin cfg0.N, win0_10.index t (0 : Fin 2) = t.val ∧ win0_10.index t (1 : Fin 2) = 0 :=
  (by decide +kernel : ∀ t : Fin grid0.N, _)
theorem idx0_w11 : ∀ t : Fin cfg0.N, win0_11.index t (0 : Fin 2) = t.val ∧ win0_11.index t (1 : Fin 2) = 0 :=
  (by decide +kernel : ∀ t : Fin grid0.N, _)
theorem idx0_w3 : ∀ t : Fin cfg0.N, win0_3.index t (0 : Fin 2) = 0 ∧ win0_3.index t (1 : Fin 2) = 0 :=
  (by decide +kernel : ∀ t : Fin grid0.N, _)
theorem idx0_w4 : ∀ t : Fin cfg0.N, win0_4.index t (0 : Fin 2) = 0 ∧ win0_4.index t (1 : Fin 2) = 0 :=
  (by decide +kernel : ∀ t : Fin grid0.N, _)
theorem idx0_w5 : ∀ t : Fin cfg0.N, win0_5.index t (0 : Fin 2) = 0 ∧ win0_5.index t (1 : Fin 2) = 0 :=
  (by decide +kernel : ∀ t : Fin grid0.N, _)
theorem idx0_w6 : ∀ t : Fin cfg0.N, win0_6.index t (0 : Fin 2) = 0 ∧ win0_6.index t (1 : Fin 2) = 0 :=
  (by decide +kernel : ∀ t : Fin grid0.N, _)
theorem idx0_w7 : ∀ t : Fin cfg0.N, win0_7.index t (0 : Fin 2) = 0 ∧ win0_7.index t (1 : Fin 2) = 0 :=
  (by decide +kernel : ∀ t : Fin grid0.N, _)
theorem idx0_w8 : ∀ t : Fin cfg0.N, win0_8.index t (0 : Fin 2) = 0 ∧ win0_8.index t (1 : Fin 2) = 0 :=
  (by decide +kernel : ∀ t : Fin grid0.N, _)
theorem idx0_w9 : ∀ t : Fin cfg0.N, win0_9.index t (0 : Fin 2) = 0 ∧ win0_9.index t (1 : Fin 2) = 0 :=
  (by decide +kernel : ∀ t : Fin grid0.N, _)

theorem t_lt0 (t : Fin cfg0.N) : t.val < 200 := Nat.lt_of_lt_of_eq t.isLt N_0

/-- The edge that row `p` of block `t` is. -/
abbrev edge (t : Fin cfg0.N) (p : Fin 5000) : Fin 1000000 := ⟨5000 * t.val + p.val, by have := t_lt0 t; have := p.isLt; omega⟩

/-! ## The first kernel's input blocks, read -/

/-- Row `p` of block `t` of input `0` is row `5000 t + p` of its array. -/
theorem iblk0_0_apply (c : Dev nD) (t : Fin cfg0.N) (p : Fin 5000) (d : Fin 128) :
    (iblk0 V c 0 t : S5000x128.Idx → EReal) (ix2 p d) = (V c main_v9 : S1000000x128.Idx → EReal) (ix2 (edge t p) d) := by
  obtain ⟨e0, e1⟩ := idx0_w0 t
  unfold iblk0
  rw [View.read_apply]
  show (V c main_v9 : S1000000x128.Idx → EReal) _ = _
  refine congrArg (V c main_v9 : S1000000x128.Idx → EReal) (funext fun a => Fin.ext ?_)
  match a with
  | ⟨0, _⟩ => show win0_0.index t (0 : Fin 2) * 5000 + 1 * p.val = 5000 * t.val + p.val; omega
  | ⟨1, _⟩ => show win0_0.index t (1 : Fin 2) * 128 + 1 * d.val = d.val; omega

/-- Row `p` of block `t` of input `1` is row `5000 t + p` of its array. -/
theorem iblk0_1_apply (c : Dev nD) (t : Fin cfg0.N) (p : Fin 5000) (d : Fin 128) :
    (iblk0 V c 1 t : S5000x128.Idx → EReal) (ix2 p d) = (V c main_v16 : S1000000x128.Idx → EReal) (ix2 (edge t p) d) := by
  obtain ⟨e0, e1⟩ := idx0_w1 t
  unfold iblk0
  rw [View.read_apply]
  show (V c main_v16 : S1000000x128.Idx → EReal) _ = _
  refine congrArg (V c main_v16 : S1000000x128.Idx → EReal) (funext fun a => Fin.ext ?_)
  match a with
  | ⟨0, _⟩ => show win0_1.index t (0 : Fin 2) * 5000 + 1 * p.val = 5000 * t.val + p.val; omega
  | ⟨1, _⟩ => show win0_1.index t (1 : Fin 2) * 128 + 1 * d.val = d.val; omega

/-- Row `p` of block `t` of input `2` is row `5000 t + p` of its array. -/
theorem iblk0_2_apply (c : Dev nD) (t : Fin cfg0.N) (p : Fin 5000) (d : Fin 128) :
    (iblk0 V c 2 t : S5000x128.Idx → EReal) (ix2 p d) = (V c main_v23 : S1000000x128.Idx → EReal) (ix2 (edge t p) d) := by
  obtain ⟨e0, e1⟩ := idx0_w2 t
  unfold iblk0
  rw [View.read_apply]
  show (V c main_v23 : S1000000x128.Idx → EReal) _ = _
  refine congrArg (V c main_v23 : S1000000x128.Idx → EReal) (funext fun a => Fin.ext ?_)
  match a with
  | ⟨0, _⟩ => show win0_2.index t (0 : Fin 2) * 5000 + 1 * p.val = 5000 * t.val + p.val; omega
  | ⟨1, _⟩ => show win0_2.index t (1 : Fin 2) * 128 + 1 * d.val = d.val; omega

/-- Input `3` is read whole at every point. -/
theorem iblk0_3_eq (c : Dev nD) (t : Fin cfg0.N) :
    (iblk0 V c 3 t : S128x64.Idx → EReal) = (V c main_v25 : S128x64.Idx → EReal) := by
  obtain ⟨e0, e1⟩ := idx0_w3 t
  unfold iblk0
  funext y
  rw [View.read_apply]
  show (V c main_v25 : S128x64.Idx → EReal) _ = _
  refine congrArg (V c main_v25 : S128x64.Idx → EReal) (funext fun a => Fin.ext ?_)
  match a with
  | ⟨0, _⟩ => show win0_3.index t (0 : Fin 2) * 128 + 1 * (y 0).val = (y 0).val; omega
  | ⟨1, _⟩ => show win0_3.index t (1 : Fin 2) * 64 + 1 * (y 1).val = (y 1).val; omega

/-- Input `4` is read whole at every point. -/
theorem iblk0_4_eq (c : Dev nD) (t : Fin cfg0.N) :
    (iblk0 V c 4 t : S1x64.Idx → EReal) = (V c main_v32 : S1x64.Idx → EReal) := by
  obtain ⟨e0, e1⟩ := idx0_w4 t
  unfold iblk0
  funext y
  rw [View.read_apply]
  show (V c main_v32 : S1x64.Idx → EReal) _ = _
  refine congrArg (V c main_v32 : S1x64.Idx → EReal) (funext fun a => Fin.ext ?_)
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- Input `5` is read whole at every point. -/
theorem iblk0_5_eq (c : Dev nD) (t : Fin cfg0.N) :
    (iblk0 V c 5 t : S128x64.Idx → EReal) = (V c main_v27 : S128x64.Idx → EReal) := by
  obtain ⟨e0, e1⟩ := idx0_w5 t
  unfold iblk0
  funext y
  rw [View.read_apply]
  show (V c main_v27 : S128x64.Idx → EReal) _ = _
  refine congrArg (V c main_v27 : S128x64.Idx → EReal) (funext fun a => Fin.ext ?_)
  match a with
  | ⟨0, _⟩ => show win0_5.index t (0 : Fin 2) * 128 + 1 * (y 0).val = (y 0).val; omega
  | ⟨1, _⟩ => show win0_5.index t (1 : Fin 2) * 64 + 1 * (y 1).val = (y 1).val; omega

/-- Input `6` is read whole at every point. -/
theorem iblk0_6_eq (c : Dev nD) (t : Fin cfg0.N) :
    (iblk0 V c 6 t : S128x64.Idx → EReal) = (V c main_v29 : S128x64.Idx → EReal) := by
  obtain ⟨e0, e1⟩ := idx0_w6 t
  unfold iblk0
  funext y
  rw [View.read_apply]
  show (V c main_v29 : S128x64.Idx → EReal) _ = _
  refine congrArg (V c main_v29 : S128x64.Idx → EReal) (funext fun a => Fin.ext ?_)
  match a with
  | ⟨0, _⟩ => show win0_6.index t (0 : Fin 2) * 128 + 1 * (y 0).val = (y 0).val; omega
  | ⟨1, _⟩ => show win0_6.index t (1 : Fin 2) * 64 + 1 * (y 1).val = (y 1).val; omega

/-- Input `7` is read whole at every point. -/
theorem iblk0_7_eq (c : Dev nD) (t : Fin cfg0.N) :
    (iblk0 V c 7 t : S128x64.Idx → EReal) = (V c main_v31 : S128x64.Idx → EReal) := by
  obtain ⟨e0, e1⟩ := idx0_w7 t
  unfold iblk0
  funext y
  rw [View.read_apply]
  show (V c main_v31 : S128x64.Idx → EReal) _ = _
  refine congrArg (V c main_v31 : S128x64.Idx → EReal) (funext fun a => Fin.ext ?_)
  match a with
  | ⟨0, _⟩ => show win0_7.index t (0 : Fin 2) * 128 + 1 * (y 0).val = (y 0).val; omega
  | ⟨1, _⟩ => show win0_7.index t (1 : Fin 2) * 64 + 1 * (y 1).val = (y 1).val; omega

/-- Input `8` is read whole at every point. -/
theorem iblk0_8_eq (c : Dev nD) (t : Fin cfg0.N) :
    (iblk0 V c 8 t : S1x64.Idx → EReal) = (V c main_arg8 : S1x64.Idx → EReal) := by
  obtain ⟨e0, e1⟩ := idx0_w8 t
  unfold iblk0
  funext y
  rw [View.read_apply]
  show (V c main_arg8 : S1x64.Idx → EReal) _ = _
  refine congrArg (V c main_arg8 : S1x64.Idx → EReal) (funext fun a => Fin.ext ?_)
  match a with
  | ⟨0, _⟩ => show win0_8.index t (0 : Fin 2) * 1 + 1 * (y 0).val = (y 0).val; omega
  | ⟨1, _⟩ => show win0_8.index t (1 : Fin 2) * 64 + 1 * (y 1).val = (y 1).val; omega

/-- Input `9` is read whole at every point. -/
theorem iblk0_9_eq (c : Dev nD) (t : Fin cfg0.N) :
    (iblk0 V c 9 t : S1x1.Idx → EReal) = (V c main_v33 : S1x1.Idx → EReal) := by
  obtain ⟨e0, e1⟩ := idx0_w9 t
  unfold iblk0
  funext y
  rw [View.read_apply]
  show (V c main_v33 : S1x1.Idx → EReal) _ = _
  refine congrArg (V c main_v33 : S1x1.Idx → EReal) (funext fun a => Fin.ext ?_)
  match a with
  | ⟨0, _⟩ => show win0_9.index t (0 : Fin 2) * 1 + 1 * (y 0).val = (y 0).val; omega
  | ⟨1, _⟩ => show win0_9.index t (1 : Fin 2) * 1 + 1 * (y 1).val = (y 1).val; omega

/-! ## What each point of the first kernel writes back -/

/-- Row `p` of output block `t` sits at row `5000 t + p` of the message array. -/
theorem emb0_10 (t : Fin cfg0.N) (p : Fin 5000) (d : Fin 128) :
    ((cfg0.win 10).blk t).view.emb (ix2 p d : S5000x128.Idx) = (ix2 (edge t p) d : S1000000x128.Idx) := by
  obtain ⟨e0, e1⟩ := idx0_w10 t
  funext a; apply Fin.ext
  match a with
  | ⟨0, _⟩ => show win0_10.index t (0 : Fin 2) * 5000 + 1 * p.val = 5000 * t.val + p.val; omega
  | ⟨1, _⟩ => show win0_10.index t (1 : Fin 2) * 128 + 1 * d.val = d.val; omega

/-- Row `p` of output block `t` sits at row `5000 t + p` of the gate column. -/
theorem emb0_11 (t : Fin cfg0.N) (p : Fin 5000) (u : Fin 1) :
    ((cfg0.win 11).blk t).view.emb (ix2 p u : S5000x1.Idx) = (ix2 (edge t p) u : S1000000x1.Idx) := by
  obtain ⟨e0, e1⟩ := idx0_w11 t
  funext a; apply Fin.ext
  match a with
  | ⟨0, _⟩ => show win0_11.index t (0 : Fin 2) * 5000 + 1 * p.val = 5000 * t.val + p.val; omega
  | ⟨1, _⟩ => show win0_11.index t (1 : Fin 2) * 1 + 1 * u.val = u.val; omega

/-- The gate of row `p` of block `t`, computed from the blocks, is the gate of edge `5000 t + p` computed from the arrays. -/
theorem gate_blocks (c : Dev nD) (t : Fin cfg0.N) (p : Fin 5000) :
    gateK (fun d => (iblk0 V c 0 t : S5000x128.Idx → EReal) (ix2 p d)) (fun d => (iblk0 V c 1 t : S5000x128.Idx → EReal) (ix2 p d))
        (fun d => (iblk0 V c 2 t : S5000x128.Idx → EReal) (ix2 p d)) (iblk0 V c 3 t) (iblk0 V c 5 t) (iblk0 V c 6 t) (iblk0 V c 7 t)
        (iblk0 V c 4 t) (iblk0 V c 8 t) (iblk0 V c 9 t)
      = gateAt (V c main_v9) (V c main_v16) (V c main_v23) (V c main_v25) (V c main_v27) (V c main_v29) (V c main_v31) (V c main_v32) (V c main_arg8) (V c main_v33) (edge t p) := by
  unfold gateAt
  rw [iblk0_3_eq V c t, iblk0_4_eq V c t, iblk0_5_eq V c t, iblk0_6_eq V c t, iblk0_7_eq V c t, iblk0_8_eq V c t, iblk0_9_eq V c t]
  simp only [iblk0_0_apply V c t, iblk0_1_apply V c t, iblk0_2_apply V c t]

/-- WHAT POINT `t` WRITES BACK to the message array is block `t` of the message function of the arrays as entered. -/
theorem flushed0_10_eq (c : Dev nD) (t : Fin cfg0.N) :
    (dat0 V c).flushed 10 t = ((cfg0.win 10).blk t).view.read (Elt Ideal) (msgK (V c main_v9) (V c main_v16) (V c main_v23) (V c main_v25) (V c main_v27) (V c main_v29) (V c main_v31) (V c main_v32) (V c main_arg8) (V c main_v33)) := by
  show (cfg0.win 10).cut (grid0.coords t) ((dat0 V c).after 10 t) = _
  rw [after0_10]
  funext j
  have hj : ∃ (p : Fin 5000) (d : Fin 128), (j : S5000x128.Idx) = ix2 p d := ⟨j 0, j 1, eq_ix2 (n0 := 5000) (n1 := 128) j⟩
  obtain ⟨p, d, rfl⟩ := hj
  show out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (ix2 p d)
    = msgK (V c main_v9) (V c main_v16) (V c main_v23) (V c main_v25) (V c main_v27) (V c main_v29) (V c main_v31) (V c main_v32) (V c main_arg8) (V c main_v33) (((cfg0.win 10).blk t).view.emb (ix2 p d : S5000x128.Idx))
  rw [emb0_10]
  refine (out0_10_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p d).trans ?_
  rw [gate_blocks V c t p, iblk0_0_apply V c t, iblk0_1_apply V c t]
  rfl

/-- WHAT POINT `t` WRITES BACK to the gate column is block `t` of the gate function of the arrays as entered. -/
theorem flushed0_11_eq (c : Dev nD) (t : Fin cfg0.N) :
    (dat0 V c).flushed 11 t = ((cfg0.win 11).blk t).view.read (Elt Ideal) (alphaK (V c main_v9) (V c main_v16) (V c main_v23) (V c main_v25) (V c main_v27) (V c main_v29) (V c main_v31) (V c main_v32) (V c main_arg8) (V c main_v33)) := by
  show (cfg0.win 11).cut (grid0.coords t) ((dat0 V c).after 11 t) = _
  rw [after0_11]
  funext j
  have hj : ∃ (p : Fin 5000) (u : Fin 1), (j : S5000x1.Idx) = ix2 p u := ⟨j 0, j 1, eq_ix2 (n0 := 5000) (n1 := 1) j⟩
  obtain ⟨p, u, rfl⟩ := hj
  obtain rfl : u = 0 := Subsingleton.elim _ _
  show out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (ix2 p (0 : Fin 1))
    = alphaK (V c main_v9) (V c main_v16) (V c main_v23) (V c main_v25) (V c main_v27) (V c main_v29) (V c main_v31) (V c main_v32) (V c main_arg8) (V c main_v33) (((cfg0.win 11).blk t).view.emb (ix2 p (0 : Fin 1) : S5000x1.Idx))
  rw [emb0_11]
  refine (out0_11_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p).trans ?_
  rw [gate_blocks V c t p]
  rfl

/-! ## The first kernel's two output arrays -/

/-- An index of the array is in point `t`'s block iff each coordinate is in the block's range on its axis. -/
theorem mem_blk0_10 (t : Fin cfg0.N) (i : S1000000x128.Idx) :
    i ∈ ((cfg0.win 10).blk t).view.set ↔ ∀ a : Fin 2, win0_10.index t a * S5000x128.size a ≤ (i a).val ∧ (i a).val < win0_10.index t a * S5000x128.size a + S5000x128.size a := by
  show i ∈ ((View.whole main_v34_0).slice (win0_10.rect t)).set ↔ _
  rw [View.set_slice_whole, Rect.mem_set_unit]
  exact Iff.rfl

/-- Every row lies in the block `row / 5000`. -/
theorem cover0_10_all (i : S1000000x128.Idx) :
    ∃ t : Fin cfg0.N, (cfg0.win 10).flush t = true ∧ i ∈ ((cfg0.win 10).blk t).view.set := by
  have hi0 : (i 0).val < 1000000 := (i 0).isLt
  have hi1 : (i 1).val < 128 := (i 1).isLt
  obtain ⟨t, ht⟩ : ∃ t : Fin cfg0.N, t.val = (i 0).val / 5000 :=
    ⟨⟨(i 0).val / 5000, by rw [show cfg0.N = 200 from N_0]; omega⟩, rfl⟩
  refine ⟨t, flush0_10 t, ?_⟩
  rw [mem_blk0_10]
  obtain ⟨e0, e1⟩ := idx0_w10 t
  intro a
  match a with
  | ⟨0, _⟩ => show win0_10.index t (0 : Fin 2) * 5000 ≤ (i 0).val ∧ (i 0).val < win0_10.index t (0 : Fin 2) * 5000 + 5000; omega
  | ⟨1, _⟩ => show win0_10.index t (1 : Fin 2) * 128 ≤ (i 1).val ∧ (i 1).val < win0_10.index t (1 : Fin 2) * 128 + 128; omega

/-- THE ARRAY after the first kernel. -/
theorem final0_10 (c : Dev nD) : (dat0 V c).arrAt 10 cfg0.N = msgK (V c main_v9) (V c main_v16) (V c main_v23) (V c main_v25) (V c main_v27) (V c main_v29) (V c main_v31) (V c main_v32) (V c main_arg8) (V c main_v33) :=
  (dat0 V c).arrAt_eq_of_cover 10 (msgK (V c main_v9) (V c main_v16) (V c main_v23) (V c main_v25) (V c main_v27) (V c main_v29) (V c main_v31) (V c main_v32) (V c main_arg8) (V c main_v33)) (fun t _ => flushed0_10_eq V c t) cover0_10_all

/-- An index of the array is in point `t`'s block iff each coordinate is in the block's range on its axis. -/
theorem mem_blk0_11 (t : Fin cfg0.N) (i : S1000000x1.Idx) :
    i ∈ ((cfg0.win 11).blk t).view.set ↔ ∀ a : Fin 2, win0_11.index t a * S5000x1.size a ≤ (i a).val ∧ (i a).val < win0_11.index t a * S5000x1.size a + S5000x1.size a := by
  show i ∈ ((View.whole main_v34_1).slice (win0_11.rect t)).set ↔ _
  rw [View.set_slice_whole, Rect.mem_set_unit]
  exact Iff.rfl

/-- Every row lies in the block `row / 5000`. -/
theorem cover0_11_all (i : S1000000x1.Idx) :
    ∃ t : Fin cfg0.N, (cfg0.win 11).flush t = true ∧ i ∈ ((cfg0.win 11).blk t).view.set := by
  have hi0 : (i 0).val < 1000000 := (i 0).isLt
  have hi1 : (i 1).val < 1 := (i 1).isLt
  obtain ⟨t, ht⟩ : ∃ t : Fin cfg0.N, t.val = (i 0).val / 5000 :=
    ⟨⟨(i 0).val / 5000, by rw [show cfg0.N = 200 from N_0]; omega⟩, rfl⟩
  refine ⟨t, flush0_11 t, ?_⟩
  rw [mem_blk0_11]
  obtain ⟨e0, e1⟩ := idx0_w11 t
  intro a
  match a with
  | ⟨0, _⟩ => show win0_11.index t (0 : Fin 2) * 5000 ≤ (i 0).val ∧ (i 0).val < win0_11.index t (0 : Fin 2) * 5000 + 5000; omega
  | ⟨1, _⟩ => show win0_11.index t (1 : Fin 2) * 1 ≤ (i 1).val ∧ (i 1).val < win0_11.index t (1 : Fin 2) * 1 + 1; omega

/-- THE ARRAY after the first kernel. -/
theorem final0_11 (c : Dev nD) : (dat0 V c).arrAt 11 cfg0.N = alphaK (V c main_v9) (V c main_v16) (V c main_v23) (V c main_v25) (V c main_v27) (V c main_v29) (V c main_v31) (V c main_v32) (V c main_arg8) (V c main_v33) :=
  (dat0 V c).arrAt_eq_of_cover 11 (alphaK (V c main_v9) (V c main_v16) (V c main_v23) (V c main_v25) (V c main_v27) (V c main_v29) (V c main_v31) (V c main_v32) (V c main_arg8) (V c main_v33)) (fun t _ => flushed0_11_eq V c t) cover0_11_all

/-! ## The second kernel -/

theorem idx1_w0 : ∀ t : Fin cfg1.N, win1_0.index t (0 : Fin 2) = t.val ∧ win1_0.index t (1 : Fin 2) = 0 :=
  (by decide +kernel : ∀ t : Fin grid1.N, _)
theorem idx1_w1 : ∀ t : Fin cfg1.N, win1_1.index t (0 : Fin 2) = 0 ∧ win1_1.index t (1 : Fin 2) = 0 :=
  (by decide +kernel : ∀ t : Fin grid1.N, _)
theorem idx1_w2 : ∀ t : Fin cfg1.N, win1_2.index t (0 : Fin 2) = t.val ∧ win1_2.index t (1 : Fin 2) = 0 :=
  (by decide +kernel : ∀ t : Fin grid1.N, _)

theorem t_lt1 (t : Fin cfg1.N) : t.val < 20 := Nat.lt_of_lt_of_eq t.isLt N_1

/-- The node that row `p` of block `t` is. -/
abbrev node (t : Fin cfg1.N) (p : Fin 10000) : Fin 200000 := ⟨10000 * t.val + p.val, by have := t_lt1 t; have := p.isLt; omega⟩

/-- Row `p` of block `t` of the aggregated messages is row `10000 t + p` of the array. -/
theorem iblk1_0_apply (c : Dev nD) (t : Fin cfg1.N) (p : Fin 10000) (d : Fin 128) :
    (iblk1 V c 0 t : S10000x128.Idx → EReal) (ix2 p d) = (V c main_v37 : S200000x128.Idx → EReal) (ix2 (node t p) d) := by
  obtain ⟨e0, e1⟩ := idx1_w0 t
  unfold iblk1
  rw [View.read_apply]
  show (V c main_v37 : S200000x128.Idx → EReal) _ = _
  refine congrArg (V c main_v37 : S200000x128.Idx → EReal) (funext fun a => Fin.ext ?_)
  match a with
  | ⟨0, _⟩ => show win1_0.index t (0 : Fin 2) * 10000 + 1 * p.val = 10000 * t.val + p.val; omega
  | ⟨1, _⟩ => show win1_0.index t (1 : Fin 2) * 128 + 1 * d.val = d.val; omega

/-- The weight matrix is read whole at every point. -/
theorem iblk1_1_eq (c : Dev nD) (t : Fin cfg1.N) :
    (iblk1 V c 1 t : S128x128.Idx → EReal) = (V c main_v39 : S128x128.Idx → EReal) := by
  obtain ⟨e0, e1⟩ := idx1_w1 t
  unfold iblk1
  funext y
  rw [View.read_apply]
  show (V c main_v39 : S128x128.Idx → EReal) _ = _
  refine congrArg (V c main_v39 : S128x128.Idx → EReal) (funext fun a => Fin.ext ?_)
  match a with
  | ⟨0, _⟩ => show win1_1.index t (0 : Fin 2) * 128 + 1 * (y 0).val = (y 0).val; omega
  | ⟨1, _⟩ => show win1_1.index t (1 : Fin 2) * 128 + 1 * (y 1).val = (y 1).val; omega

/-- Row `p` of output block `t` sits at row `10000 t + p` of the node array. -/
theorem emb1_2 (t : Fin cfg1.N) (p : Fin 10000) (o : Fin 128) :
    ((cfg1.win 2).blk t).view.emb (ix2 p o : S10000x128.Idx) = (ix2 (node t p) o : S200000x128.Idx) := by
  obtain ⟨e0, e1⟩ := idx1_w2 t
  funext a; apply Fin.ext
  match a with
  | ⟨0, _⟩ => show win1_2.index t (0 : Fin 2) * 10000 + 1 * p.val = 10000 * t.val + p.val; omega
  | ⟨1, _⟩ => show win1_2.index t (1 : Fin 2) * 128 + 1 * o.val = o.val; omega

/-- WHAT POINT `t` WRITES BACK to the node array is block `t` of the rectified product of the arrays as entered. -/
theorem flushed1_2_eq (c : Dev nD) (t : Fin cfg1.N) :
    (dat1 V c).flushed 2 t = ((cfg1.win 2).blk t).view.read (Elt Ideal) (outK (V c main_v37) (V c main_v39)) := by
  show (cfg1.win 2).cut (grid1.coords t) ((dat1 V c).after 2 t) = _
  rw [after1_2]
  funext j
  have hj : ∃ (p : Fin 10000) (o : Fin 128), (j : S10000x128.Idx) = ix2 p o := ⟨j 0, j 1, eq_ix2 (n0 := 10000) (n1 := 128) j⟩
  obtain ⟨p, o, rfl⟩ := hj
  show out1_2 (iblk1 V c 0 t) (iblk1 V c 1 t) (ix2 p o)
    = outK (V c main_v37) (V c main_v39) (((cfg1.win 2).blk t).view.emb (ix2 p o : S10000x128.Idx))
  rw [emb1_2]
  refine (out1_2_apply (iblk1 V c 0 t) (iblk1 V c 1 t) p o).trans ?_
  rw [iblk1_1_eq V c t]
  simp only [iblk1_0_apply V c t]
  rfl

theorem mem_blk1_2 (t : Fin cfg1.N) (i : S200000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v40).slice (win1_2.rect t)).set ↔ _
  rw [View.set_slice_whole, Rect.mem_set_unit]
  exact Iff.rfl

/-- Every node row lies in the block `row / 10000`. -/
theorem cover1_2_all (i : S200000x128.Idx) :
    ∃ t : Fin cfg1.N, (cfg1.win 2).flush t = true ∧ i ∈ ((cfg1.win 2).blk t).view.set := by
  have hi0 : (i 0).val < 200000 := (i 0).isLt
  have hi1 : (i 1).val < 128 := (i 1).isLt
  obtain ⟨t, ht⟩ : ∃ t : Fin cfg1.N, t.val = (i 0).val / 10000 :=
    ⟨⟨(i 0).val / 10000, by rw [show cfg1.N = 20 from N_1]; omega⟩, rfl⟩
  refine ⟨t, flush1_2 t, ?_⟩
  rw [mem_blk1_2]
  obtain ⟨e0, e1⟩ := idx1_w2 t
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- THE ARRAY after the second kernel. -/
theorem final1_2 (c : Dev nD) : (dat1 V c).arrAt 2 cfg1.N = outK (V c main_v37) (V c main_v39) :=
  (dat1 V c).arrAt_eq_of_cover 2 (outK (V c main_v37) (V c main_v39)) (fun t _ => flushed1_2_eq V c t) cover1_2_all

end Cert.KernelIdeal.Edge

end
-- ==== Proof.Program.lean ====
/-
  The two-kernel program's results as functions of its fifteen arguments.

  Before the first kernel the host gathers, for each edge, a row of each of the three feature tables (a negative
  index is first wrapped by the table's height), transposes the four [64, 128] weight matrices, and lays the two
  biases out as [1, 64] and [1, 1]; at the ideal values the changes of float format are the identity. Between the
  kernels it adds every message row into the row of its target node (a scatter-add into zeros) and transposes the
  [128, 128] matrix. Reading the buffers at each segment boundary back through these host operations and through the
  two kernels' whole-array results gives the gate column and the node array as the closed terms `alphaP` and `outP`
  of the launch contents of the arguments.
-/
import proofs.«124359_j80092550136107_1_alg».proof.Proof.Blocks
import Idealize.ShloMosaic.Lib.StableHlo.Run

set_option maxRecDepth 16384

noncomputable section

open scoped BigOperators

namespace Cert.KernelIdeal.Edge

open Cert.KernelIdeal Cert.KernelIdeal.Gen Idealize.ShloMosaic Idealize.ShloMosaic.TcCoe Idealize.ShloMosaic.ValueIdx
open Idealize.SL.Sem Idealize.ShloMosaic.StableHlo

/-- A column of row indices, a negative one wrapped once by the table's height `n`. -/
def wrapIdx (n : BitVec 32) (x : S1000000.Idx → BitVec 32) : S1000000x1.Idx → BitVec 32 :=
  broadcastInDim S1000000x1 ![0] bcast_S1000000_S1000000x1_0
    (select (cmpi .slt x (broadcastInDim S1000000 ![] bcast_S_S1000000 (constantI S_ 32 0#32)))
      (addi x (broadcastInDim S1000000 ![] bcast_S_S1000000 (constantI S_ 32 n))) x)

/-- The source-node features of every edge. -/
def hsK (x0 : S200000x128.Idx → EReal) (x13 : S1000000.Idx → BitVec 32) : S1000000x128.Idx → EReal :=
  Host.gather gather_S200000x128_S1000000x1_S1000000x128_1_0_n_n_0_1_1128 (truncf (F := Ideal) (φ := .f32) .bf16 x0 bitsLt_bf16_f32)
    (wrapIdx 200000#32 x13)
/-- The relation features of every edge. -/
def hrK (x2 : S401x128.Idx → EReal) (x12 : S1000000.Idx → BitVec 32) : S1000000x128.Idx → EReal :=
  Host.gather gather_S401x128_S1000000x1_S1000000x128_1_0_n_n_0_1_1128 (truncf (F := Ideal) (φ := .f32) .bf16 x2 bitsLt_bf16_f32)
    (wrapIdx 401#32 x12)
/-- The query features of every edge. -/
def hqK (x1 : S64x128.Idx → EReal) (x11 : S1000000.Idx → BitVec 32) : S1000000x128.Idx → EReal :=
  Host.gather gather_S64x128_S1000000x1_S1000000x128_1_0_n_n_0_1_1128 (truncf (F := Ideal) (φ := .f32) .bf16 x1 bitsLt_bf16_f32)
    (wrapIdx 64#32 x11)
/-- A [64, 128] weight matrix transposed. -/
def wT (x : S64x128.Idx → EReal) : S128x64.Idx → EReal :=
  truncf (F := Ideal) (φ := .f32) .bf16 (transpose S128x64 [1, 0] x transposes_S64x128_S128x64_1_0) bitsLt_bf16_f32
/-- The first bias as a [1, 64] row. -/
def biasK (x4 : S64.Idx → EReal) : S1x64.Idx → EReal := fun i => shapeCast S1x64 x4 shapeCasts_S64_S1x64 i
/-- The second bias as a [1, 1] array. -/
def wbK (x9 : S1.Idx → EReal) : S1x1.Idx → EReal := fun i => shapeCast S1x1 x9 shapeCasts_S1_S1x1 i
/-- The [128, 128] matrix transposed. -/
def whT (x10 : S128x128.Idx → EReal) : S128x128.Idx → EReal :=
  truncf (F := Ideal) (φ := .f32) .bf16 (transpose S128x128 [1, 0] x10 transposes_S128x128_S128x128_1_0) bitsLt_bf16_f32

/-- The gate column, of the arguments. -/
def alphaP (x0 : S200000x128.Idx → EReal) (x1 : S64x128.Idx → EReal) (x2 : S401x128.Idx → EReal) (x3 : S64x128.Idx → EReal)
    (x4 : S64.Idx → EReal) (x5 x6 x7 : S64x128.Idx → EReal) (x8 : S1x64.Idx → EReal) (x9 : S1.Idx → EReal)
    (x11 x12 x13 : S1000000.Idx → BitVec 32) : S1000000x1.Idx → EReal :=
  alphaK (hsK x0 x13) (hrK x2 x12) (hqK x1 x11) (wT x3) (wT x5) (wT x6) (wT x7) (biasK x4) x8 (wbK x9)
/-- The message array, of the arguments. -/
def msgP (x0 : S200000x128.Idx → EReal) (x1 : S64x128.Idx → EReal) (x2 : S401x128.Idx → EReal) (x3 : S64x128.Idx → EReal)
    (x4 : S64.Idx → EReal) (x5 x6 x7 : S64x128.Idx → EReal) (x8 : S1x64.Idx → EReal) (x9 : S1.Idx → EReal)
    (x11 x12 x13 : S1000000.Idx → BitVec 32) : S1000000x128.Idx → EReal :=
  msgK (hsK x0 x13) (hrK x2 x12) (hqK x1 x11) (wT x3) (wT x5) (wT x6) (wT x7) (biasK x4) x8 (wbK x9)
/-- The messages added per target node. -/
def aggP (msg : S1000000x128.Idx → EReal) (x14 : S1000000.Idx → BitVec 32) : S200000x128.Idx → EReal :=
  Host.scatterAdd scatter_S200000x128_S1000000x1_S1000000x128_1_0_0_1
    (broadcastInDim S200000x128 ![] bcast_S_S200000x128 (constant (F := Ideal) S_ .f32 0x00000000#32))
    (broadcastInDim S1000000x1 ![0] bcast_S1000000_S1000000x1_0 x14) msg
/-- The node array, of the arguments. -/
def outP (x0 : S200000x128.Idx → EReal) (x1 : S64x128.Idx → EReal) (x2 : S401x128.Idx → EReal) (x3 : S64x128.Idx → EReal)
    (x4 : S64.Idx → EReal) (x5 x6 x7 : S64x128.Idx → EReal) (x8 : S1x64.Idx → EReal) (x9 : S1.Idx → EReal)
    (x11 x12 x13 : S1000000.Idx → BitVec 32) (x10 : S128x128.Idx → EReal) (x14 : S1000000.Idx → BitVec 32) : S200000x128.Idx → EReal :=
  outK (aggP (msgP x0 x1 x2 x3 x4 x5 x6 x7 x8 x9 x11 x12 x13) x14) (whT x10)

variable (m : (ℓ : Loc nD τ sig) → Buf (Elt Ideal) ℓ) (ρ : Dev nD → PrngReg)

/-! ## The first kernel's ten operands as it finds them -/

theorem V1_v9 (c : Dev nD) : V1 m ρ c main_v9 = hsK (m ((c : Thread nD τ).loc main_arg0)) (m ((c : Thread nD τ).loc main_arg13)) := by
  show StableHlo.after hostOps0 (W0 m ρ c) (Proc.devRef .tc main_v9) = _
  dsimp only [hostOps0]; after_results_simp; rfl
theorem V1_v16 (c : Dev nD) : V1 m ρ c main_v16 = hrK (m ((c : Thread nD τ).loc main_arg2)) (m ((c : Thread nD τ).loc main_arg12)) := by
  show StableHlo.after hostOps0 (W0 m ρ c) (Proc.devRef .tc main_v16) = _
  dsimp only [hostOps0]; after_results_simp; rfl
theorem V1_v23 (c : Dev nD) : V1 m ρ c main_v23 = hqK (m ((c : Thread nD τ).loc main_arg1)) (m ((c : Thread nD τ).loc main_arg11)) := by
  show StableHlo.after hostOps0 (W0 m ρ c) (Proc.devRef .tc main_v23) = _
  dsimp only [hostOps0]; after_results_simp; rfl
theorem V1_v25 (c : Dev nD) : V1 m ρ c main_v25 = wT (m ((c : Thread nD τ).loc main_arg3)) := by
  show StableHlo.after hostOps0 (W0 m ρ c) (Proc.devRef .tc main_v25) = _
  dsimp only [hostOps0]; after_results_simp; rfl
theorem V1_v27 (c : Dev nD) : V1 m ρ c main_v27 = wT (m ((c : Thread nD τ).loc main_arg5)) := by
  show StableHlo.after hostOps0 (W0 m ρ c) (Proc.devRef .tc main_v27) = _
  dsimp only [hostOps0]; after_results_simp; rfl
theorem V1_v29 (c : Dev nD) : V1 m ρ c main_v29 = wT (m ((c : Thread nD τ).loc main_arg6)) := by
  show StableHlo.after hostOps0 (W0 m ρ c) (Proc.devRef .tc main_v29) = _
  dsimp only [hostOps0]; after_results_simp; rfl
theorem V1_v31 (c : Dev nD) : V1 m ρ c main_v31 = wT (m ((c : Thread nD τ).loc main_arg7)) := by
  show StableHlo.after hostOps0 (W0 m ρ c) (Proc.devRef .tc main_v31) = _
  dsimp only [hostOps0]; after_results_simp; rfl
theorem V1_v32 (c : Dev nD) : V1 m ρ c main_v32 = biasK (m ((c : Thread nD τ).loc main_arg4)) := by
  show StableHlo.after hostOps0 (W0 m ρ c) (Proc.devRef .tc main_v32) = _
  dsimp only [hostOps0]; after_results_simp; rfl
theorem V1_arg8 (c : Dev nD) : V1 m ρ c main_arg8 = (m ((c : Thread nD τ).loc main_arg8)) := by
  show StableHlo.after hostOps0 (W0 m ρ c) (Proc.devRef .tc main_arg8) = _
  dsimp only [hostOps0]; after_results_simp
theorem V1_v33 (c : Dev nD) : V1 m ρ c main_v33 = wbK (m ((c : Thread nD τ).loc main_arg9)) := by
  show StableHlo.after hostOps0 (W0 m ρ c) (Proc.devRef .tc main_v33) = _
  dsimp only [hostOps0]; after_results_simp; rfl

/-- An argument no host operation before the first kernel writes. -/
theorem W1_arg14 (c : Dev nD) : W1 m ρ c (Proc.devRef .tc main_arg14) = (m ((c : Thread nD τ).loc main_arg14)) := by
  show StableHlo.after hostOps0 (W0 m ρ c) (Proc.devRef .tc main_arg14) = _
  dsimp only [hostOps0]; after_results_simp
theorem W1_arg10 (c : Dev nD) : W1 m ρ c (Proc.devRef .tc main_arg10) = (m ((c : Thread nD τ).loc main_arg10)) := by
  show StableHlo.after hostOps0 (W0 m ρ c) (Proc.devRef .tc main_arg10) = _
  dsimp only [hostOps0]; after_results_simp

/-! ## After the first kernel -/

/-- The message array the first kernel leaves. -/
theorem W2_v34_0 (c : Dev nD) : W2 m ρ c (Proc.devRef .tc main_v34_0) = msgP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11)) (m ((c : Thread nD τ).loc main_arg12)) (m ((c : Thread nD τ).loc main_arg13)) := by
  refine (W2_arr m ρ c 10).trans ?_
  rw [final0_10 (V1 m ρ) c, V1_v9, V1_v16, V1_v23, V1_v25, V1_v27, V1_v29, V1_v31, V1_v32, V1_arg8, V1_v33]
  rfl

/-- The gate column the first kernel leaves. -/
theorem W2_v34_1 (c : Dev nD) : W2 m ρ c (Proc.devRef .tc main_v34_1) = alphaP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11)) (m ((c : Thread nD τ).loc main_arg12)) (m ((c : Thread nD τ).loc main_arg13)) := by
  refine (W2_arr m ρ c 11).trans ?_
  rw [final0_11 (V1 m ρ) c, V1_v9, V1_v16, V1_v23, V1_v25, V1_v27, V1_v29, V1_v31, V1_v32, V1_arg8, V1_v33]
  rfl

theorem W2_arg14 (c : Dev nD) : W2 m ρ c (Proc.devRef .tc main_arg14) = (m ((c : Thread nD τ).loc main_arg14)) :=
  (W2_of_ne m ρ c main_arg14 (by decide)).trans (W1_arg14 m ρ c)
theorem W2_arg10 (c : Dev nD) : W2 m ρ c (Proc.devRef .tc main_arg10) = (m ((c : Thread nD τ).loc main_arg10)) :=
  (W2_of_ne m ρ c main_arg10 (by decide)).trans (W1_arg10 m ρ c)

/-! ## The second kernel's operands, and the results -/

theorem V3_v37 (c : Dev nD) : V3 m ρ c main_v37 = aggP (msgP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11)) (m ((c : Thread nD τ).loc main_arg12)) (m ((c : Thread nD τ).loc main_arg13))) (m ((c : Thread nD τ).loc main_arg14)) := by
  show StableHlo.after hostOps1 (W2 m ρ c) (Proc.devRef .tc main_v37) = _
  dsimp only [hostOps1]; after_results_simp
  rw [W2_v34_0, W2_arg14]
  rfl
theorem V3_v39 (c : Dev nD) : V3 m ρ c main_v39 = whT (m ((c : Thread nD τ).loc main_arg10)) := by
  show StableHlo.after hostOps1 (W2 m ρ c) (Proc.devRef .tc main_v39) = _
  dsimp only [hostOps1]; after_results_simp
  rw [W2_arg10]
  rfl

/-- The node array at the end. -/
theorem W4_v40 (c : Dev nD) : W4 m ρ c (Proc.devRef .tc main_v40) = outP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11)) (m ((c : Thread nD τ).loc main_arg12)) (m ((c : Thread nD τ).loc main_arg13)) (m ((c : Thread nD τ).loc main_arg10)) (m ((c : Thread nD τ).loc main_arg14)) := by
  refine (W4_arr m ρ c 2).trans ?_
  rw [final1_2 (V3 m ρ) c, V3_v37, V3_v39]
  rfl

/-- The gate column at the end: neither the host operations between the kernels nor the second kernel write it. -/
theorem W4_v34_1 (c : Dev nD) : W4 m ρ c (Proc.devRef .tc main_v34_1) = alphaP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11)) (m ((c : Thread nD τ).loc main_arg12)) (m ((c : Thread nD τ).loc main_arg13)) := by
  refine (W4_of_ne m ρ c main_v34_1 (by decide)).trans ?_
  refine Eq.trans ?_ (W2_v34_1 m ρ c)
  show StableHlo.after hostOps1 (W2 m ρ c) (Proc.devRef .tc main_v34_1) = _
  dsimp only [hostOps1]; after_results_simp

end Cert.KernelIdeal.Edge

end
-- ==== Proof.KernelRun.lean ====
/-
  The run of the two-kernel program with its results named.

  From any launch memory every weakly fair execution of the program ends, without a fault, and in the final state each
  buffer the host thread holds has the contents the last segment boundary names (`W4`): in particular the two result
  buffers — the second kernel's output array and the first kernel's gate array — and the fifteen argument arrays, which
  are as launched. The boundary contents are a fold through the program: host operations, the first kernel's
  write-backs, host operations, the second kernel's write-backs.
-/
import proofs.«124359_j80092550136107_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the two result buffers at the last boundary's contents and the arguments as
    launched. -/
theorem run_results : θ_run defs (onTc (τ := τ) (main (F := F))) ⟨m, fun _ => 0, ρ⟩ (fun r => ∀ c : Dev nD,
      r.2.mem ((c.tc : Thread nD τ).loc main_v40) = W4 m ρ c (Proc.devRef .tc main_v40)
      ∧ r.2.mem ((c.tc : Thread nD τ).loc main_v34_1) = W4 m ρ c (Proc.devRef .tc main_v34_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v40 (by decide)),
       h c _ (mem_uc main_v34_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c)⟩)

end Cert.KernelIdeal.Hand

end
-- ==== Proof.KernelValue.lean ====
/-
  The two-kernel program's run, read: every weakly fair execution ends with the node array at `outP` and the gate column
  at `alphaP` of the arguments' launch contents, and the arguments unchanged.
-/
import proofs.«124359_j80092550136107_1_alg».proof.Proof.Program
import proofs.«124359_j80092550136107_1_alg».proof.Proof.KernelRun

noncomputable section

namespace Cert.KernelIdeal.Hand

open Cert.KernelIdeal Cert.KernelIdeal.Gen Cert.KernelIdeal.Edge
open Idealize.ShloMosaic Idealize.ShloMosaic.TcCoe Idealize.SL.Sem

variable (m : (ℓ : Loc nD τ sig) → Buf (Elt Ideal) ℓ) (ρ : Dev nD → PrngReg)

theorem run : θ_run defs (onTc (τ := τ) (main (F := Ideal))) ⟨m, fun _ => 0, ρ⟩ (fun r => ∀ c : Dev nD,
      r.2.mem ((c.tc : Thread nD τ).loc main_v40) = outP (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11)) (m ((c.tc : Thread nD τ).loc main_arg12)) (m ((c.tc : Thread nD τ).loc main_arg13)) (m ((c.tc : Thread nD τ).loc main_arg10)) (m ((c.tc : Thread nD τ).loc main_arg14))
      ∧ r.2.mem ((c.tc : Thread nD τ).loc main_v34_1) = alphaP (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans (W4_v40 m ρ c), (h c).2.1.trans (W4_v34_1 m ρ c), (h c).2.2⟩)
    (run_results m ρ)

end Cert.KernelIdeal.Hand

end
-- ==== Proof.RefBridge.lean ====
/-
  The reference computes the same functions.

  Read one operation at a time, the reference's gate column at edge `e` is the logistic function (spelt
  `1 / (1 + exp (-x))`) of `(∑ a, max (pre e a) 0 * wa (0, a)) + wb 0` with
  `pre e a = (((∑ d, hs (e, d) * Ws (a, d)) + b a) + ∑ d, hr (e, d) * Wr (a, d)) + (∑ d, hq (e, d) * Wq (a, d)) + ∑ d, (hr (e, d) * hq (e, d)) * Wqr (a, d)`:
  the kernel's terms with each transposed weight read back at `(a, d)` and each bias at its one coordinate. The gathered
  feature arrays are the kernel's (a change of float format is the identity), the scatter-add into zeros is the same
  operation on both sides, and the last product `∑ d, agg (v, d) * Wh (o, d)` is the kernel's with `WhT (d, o) = Wh (o, d)`.
-/
import proofs.«124359_j80092550136107_1_alg».proof.Proof.Program
import proofs.«124359_j80092550136107_1_alg».proof.Proof.Gen.ReferenceIdeal.Read
import Idealize.ShloMosaic.PureOps.IdealRules

set_option maxRecDepth 16384

noncomputable section

open scoped BigOperators

namespace Cert.ReferenceIdeal.Bridge

open Cert.ReferenceIdeal Cert.ReferenceIdeal.Read Idealize.ShloMosaic Idealize.ShloMosaic.ValueIdx
open Cert.KernelIdeal.Edge

/-! ## The kernel's re-laid small operands, read back -/

theorem wT_apply (x : S64x128.Idx → EReal) (d : Fin 128) (a : Fin 64) : wT x (ix2 d a) = x (ix2 a d) :=
  transpose_ix2_apply x Cert.KernelIdeal.Facts₀.transposes_S64x128_S128x64_1_0 d a

theorem whT_apply (x : S128x128.Idx → EReal) (d o : Fin 128) : whT x (ix2 d o) = x (ix2 o d) :=
  transpose_ix2_apply x Cert.KernelIdeal.Facts₀.transposes_S128x128_S128x128_1_0 d o

theorem biasK_apply (x4 : S64.Idx → EReal) (a : Fin 64) : biasK x4 (ix2 (0 : Fin 1) a) = x4 (ix1 a) :=
  shapeCast_a_1a_apply x4 Cert.KernelIdeal.Facts₀.shapeCasts_S64_S1x64 0 a

theorem wbK_apply (x9 : S1.Idx → EReal) : wbK x9 (ix2 (0 : Fin 1) (0 : Fin 1)) = x9 (ix1 (0 : Fin 1)) :=
  shapeCast_a_1a_apply x9 Cert.KernelIdeal.Facts₀.shapeCasts_S1_S1x1 0 0

/-! ## The gathered features are the kernel's -/

theorem ref_hs (x0 : (⟨S200000x128, .f32⟩ : BufTy).Contents (Elt Ideal)) (x13 : (⟨S1000000, .i32⟩ : BufTy).Contents (Elt Ideal)) :
    val_main_v6 (F := Ideal) x0 x13 = hsK x0 x13 := rfl
theorem ref_hr (x2 : (⟨S401x128, .f32⟩ : BufTy).Contents (Elt Ideal)) (x12 : (⟨S1000000, .i32⟩ : BufTy).Contents (Elt Ideal)) :
    val_main_v13 (F := Ideal) x2 x12 = hrK x2 x12 := rfl
theorem ref_hq (x1 : (⟨S64x128, .f32⟩ : BufTy).Contents (Elt Ideal)) (x11 : (⟨S1000000, .i32⟩ : BufTy).Contents (Elt Ideal)) :
    val_main_v20 (F := Ideal) x1 x11 = hqK x1 x11 := rfl

/-! ## The pre-activation, the gate, the message -/

theorem ref_pre (x0 : (⟨S200000x128, .f32⟩ : BufTy).Contents (Elt Ideal)) (x1 : (⟨S64x128, .f32⟩ : BufTy).Contents (Elt Ideal))
    (x2 : (⟨S401x128, .f32⟩ : BufTy).Contents (Elt Ideal)) (x3 : (⟨S64x128, .f32⟩ : BufTy).Contents (Elt Ideal))
    (x4 : (⟨S64, .f32⟩ : BufTy).Contents (Elt Ideal)) (x5 x6 x7 : (⟨S64x128, .f32⟩ : BufTy).Contents (Elt Ideal))
    (x11 x12 x13 : (⟨S1000000, .i32⟩ : BufTy).Contents (Elt Ideal)) (e : Fin 1000000) (a : Fin 64) :
    val_main_v31 (F := Ideal) x0 x1 x2 x3 x4 x5 x6 x7 x11 x12 x13 (ix2 e a)
      = preK (fun d => hsK x0 x13 (ix2 e d)) (fun d => hrK x2 x12 (ix2 e d)) (fun d => hqK x1 x11 (ix2 e d))
          (wT x3) (wT x5) (wT x6) (wT x7) (biasK x4) a := by
  rw [val_main_v31_apply, val_main_v28_apply, val_main_v26_apply, val_main_v24_apply, val_main_v21_apply, val_main_v23_apply,
    val_main_v22_apply, val_main_v25_apply, val_main_v27_apply, val_main_v30_apply]
  unfold preK
  refine congrArg₂ (· + ·) (congrArg₂ (· + ·) (congrArg₂ (· + ·) (congrArg₂ (· + ·) ?_ ?_) ?_) ?_) ?_
  · refine Finset.sum_congr rfl fun d _ => ?_
    have hl : lidx_main_v21 (ix2 e a) d = ix2 e d := funext fun x => Fin.ext (by match x with | ⟨0, _⟩ => rfl | ⟨1, _⟩ => rfl)
    have hr : ridx_main_v21 (ix2 e a) d = ix2 a d := funext fun x => Fin.ext (by match x with | ⟨0, _⟩ => rfl | ⟨1, _⟩ => rfl)
    rw [hl, hr, wT_apply x3 d a]
    rw [ref_hs]
  · have hb : idx_main_v22 (idx_main_v23 (ix2 e a)) = ix1 a := funext fun x => Fin.ext (by match x with | ⟨0, _⟩ => rfl)
    rw [hb, biasK_apply]
  · refine Finset.sum_congr rfl fun d _ => ?_
    have hl : lidx_main_v25 (ix2 e a) d = ix2 e d := funext fun x => Fin.ext (by match x with | ⟨0, _⟩ => rfl | ⟨1, _⟩ => rfl)
    have hr : ridx_main_v25 (ix2 e a) d = ix2 a d := funext fun x => Fin.ext (by match x with | ⟨0, _⟩ => rfl | ⟨1, _⟩ => rfl)
    rw [hl, hr, wT_apply x5 d a]
    rw [ref_hr]
  · refine Finset.sum_congr rfl fun d _ => ?_
    have hl : lidx_main_v27 (ix2 e a) d = ix2 e d := funext fun x => Fin.ext (by match x with | ⟨0, _⟩ => rfl | ⟨1, _⟩ => rfl)
    have hr : ridx_main_v27 (ix2 e a) d = ix2 a d := funext fun x => Fin.ext (by match x with | ⟨0, _⟩ => rfl | ⟨1, _⟩ => rfl)
    rw [hl, hr, wT_apply x6 d a]
    rw [ref_hq]
  · refine Finset.sum_congr rfl fun d _ => ?_
    have hl : lidx_main_v30 (ix2 e a) d = ix2 e d := funext fun x => Fin.ext (by match x with | ⟨0, _⟩ => rfl | ⟨1, _⟩ => rfl)
    have hr : ridx_main_v30 (ix2 e a) d = ix2 a d := funext fun x => Fin.ext (by match x with | ⟨0, _⟩ => rfl | ⟨1, _⟩ => rfl)
    rw [hl, hr, wT_apply x7 d a]
    rw [val_main_v29_apply, ref_hr, ref_hq]
    rfl

theorem ref_gate (x0 : (⟨S200000x128, .f32⟩ : BufTy).Contents (Elt Ideal)) (x1 : (⟨S64x128, .f32⟩ : BufTy).Contents (Elt Ideal))
    (x2 : (⟨S401x128, .f32⟩ : BufTy).Contents (Elt Ideal)) (x3 : (⟨S64x128, .f32⟩ : BufTy).Contents (Elt Ideal))
    (x4 : (⟨S64, .f32⟩ : BufTy).Contents (Elt Ideal)) (x5 x6 x7 : (⟨S64x128, .f32⟩ : BufTy).Contents (Elt Ideal))
    (x8 : (⟨S1x64, .f32⟩ : BufTy).Contents (Elt Ideal)) (x9 : (⟨S1, .f32⟩ : BufTy).Contents (Elt Ideal))
    (x11 x12 x13 : (⟨S1000000, .i32⟩ : BufTy).Contents (Elt Ideal)) (e : Fin 1000000) (u : Fin 1) :
    val_main_v42 (F := Ideal) x0 x1 x2 x3 x4 x5 x6 x7 x8 x9 x11 x12 x13 (ix2 e u)
      = gateAt (hsK x0 x13) (hrK x2 x12) (hqK x1 x11) (wT x3) (wT x5) (wT x6) (wT x7) (biasK x4) x8 (wbK x9) e := by
  obtain rfl : u = 0 := Subsingleton.elim _ _
  have h1 : Ideal.ofBits .f32 0x3F800000#32 = 1 := IdealRules.sign_bit.ideal_onePat .f32
  have hS : (∑ k : Fin 64, val_main_v32 (F := Ideal) x0 x1 x2 x3 x4 x5 x6 x7 x11 x12 x13 (lidx_main_v33 (ix2 e (0 : Fin 1)) k)
        * x8 (ridx_main_v33 (ix2 e (0 : Fin 1)) k))
      = ∑ a : Fin 64, max (preK (fun d => hsK x0 x13 (ix2 e d)) (fun d => hrK x2 x12 (ix2 e d)) (fun d => hqK x1 x11 (ix2 e d))
          (wT x3) (wT x5) (wT x6) (wT x7) (biasK x4) a) z32 * x8 (ix2 (0 : Fin 1) a) := by
    refine Finset.sum_congr rfl fun a _ => ?_
    have hl : lidx_main_v33 (ix2 e (0 : Fin 1)) a = ix2 e a := funext fun x => Fin.ext (by match x with | ⟨0, _⟩ => rfl | ⟨1, _⟩ => rfl)
    have hr : ridx_main_v33 (ix2 e (0 : Fin 1)) a = ix2 (0 : Fin 1) a := funext fun x => Fin.ext (by match x with | ⟨0, _⟩ => rfl | ⟨1, _⟩ => rfl)
    rw [hl, hr, val_main_v32_apply, ref_pre]
    rfl
  have hb : x9 (idx_main_v34 (idx_main_v35 (ix2 e (0 : Fin 1)))) = wbK x9 (ix2 (0 : Fin 1) (0 : Fin 1)) := by
    rw [wbK_apply]
    exact congrArg x9 (funext fun x => Fin.ext (by match x with | ⟨0, _⟩ => rfl))
  rw [val_main_v42_apply, val_main_v41_apply, val_main_v40_apply, val_main_v39_apply, val_main_v38_apply, val_main_v37_apply,
    val_main_v36_apply, val_main_v33_apply, val_main_v35_apply, val_main_v34_apply, hS, hb]
  show Ideal.div (Ideal.ofBits .f32 0x3F800000#32) (Ideal.ofBits .f32 0x3F800000#32 + Ideal.exp (-(_ + _))) = _
  rw [h1]
  rfl

/-- The reference's gate column is the kernel's. -/
theorem ref_alpha (x0 : (⟨S200000x128, .f32⟩ : BufTy).Contents (Elt Ideal)) (x1 : (⟨S64x128, .f32⟩ : BufTy).Contents (Elt Ideal))
    (x2 : (⟨S401x128, .f32⟩ : BufTy).Contents (Elt Ideal)) (x3 : (⟨S64x128, .f32⟩ : BufTy).Contents (Elt Ideal))
    (x4 : (⟨S64, .f32⟩ : BufTy).Contents (Elt Ideal)) (x5 x6 x7 : (⟨S64x128, .f32⟩ : BufTy).Contents (Elt Ideal))
    (x8 : (⟨S1x64, .f32⟩ : BufTy).Contents (Elt Ideal)) (x9 : (⟨S1, .f32⟩ : BufTy).Contents (Elt Ideal))
    (x11 x12 x13 : (⟨S1000000, .i32⟩ : BufTy).Contents (Elt Ideal)) :
    val_main_v42 (F := Ideal) x0 x1 x2 x3 x4 x5 x6 x7 x8 x9 x11 x12 x13 = alphaP x0 x1 x2 x3 x4 x5 x6 x7 x8 x9 x11 x12 x13 := by
  funext i
  obtain ⟨e, u, rfl⟩ : ∃ (e : Fin 1000000) (u : Fin 1), i = ix2 e u := ⟨i 0, i 1, eq_ix2 i⟩
  exact ref_gate x0 x1 x2 x3 x4 x5 x6 x7 x8 x9 x11 x12 x13 e u

/-- The reference's message array is the kernel's. -/
theorem ref_msg (x0 : (⟨S200000x128, .f32⟩ : BufTy).Contents (Elt Ideal)) (x1 : (⟨S64x128, .f32⟩ : BufTy).Contents (Elt Ideal))
    (x2 : (⟨S401x128, .f32⟩ : BufTy).Contents (Elt Ideal)) (x3 : (⟨S64x128, .f32⟩ : BufTy).Contents (Elt Ideal))
    (x4 : (⟨S64, .f32⟩ : BufTy).Contents (Elt Ideal)) (x5 x6 x7 : (⟨S64x128, .f32⟩ : BufTy).Contents (Elt Ideal))
    (x8 : (⟨S1x64, .f32⟩ : BufTy).Contents (Elt Ideal)) (x9 : (⟨S1, .f32⟩ : BufTy).Contents (Elt Ideal))
    (x11 x12 x13 : (⟨S1000000, .i32⟩ : BufTy).Contents (Elt Ideal)) :
    val_main_v45 (F := Ideal) x0 x1 x2 x3 x4 x5 x6 x7 x8 x9 x11 x12 x13 = msgP x0 x1 x2 x3 x4 x5 x6 x7 x8 x9 x11 x12 x13 := by
  funext i
  obtain ⟨e, d, rfl⟩ : ∃ (e : Fin 1000000) (d : Fin 128), i = ix2 e d := ⟨i 0, i 1, eq_ix2 i⟩
  have hi : idx_main_v44 (ix2 e d) = ix2 e (0 : Fin 1) := funext fun x => Fin.ext (by match x with | ⟨0, _⟩ => rfl | ⟨1, _⟩ => rfl)
  rw [val_main_v45_apply, val_main_v44_apply, val_main_v43_apply, hi, ref_gate, ref_hs, ref_hr]
  rfl

/-- The reference's node array is the kernel's. -/
theorem ref_out (x0 : (⟨S200000x128, .f32⟩ : BufTy).Contents (Elt Ideal)) (x1 : (⟨S64x128, .f32⟩ : BufTy).Contents (Elt Ideal))
    (x2 : (⟨S401x128, .f32⟩ : BufTy).Contents (Elt Ideal)) (x3 : (⟨S64x128, .f32⟩ : BufTy).Contents (Elt Ideal))
    (x4 : (⟨S64, .f32⟩ : BufTy).Contents (Elt Ideal)) (x5 x6 x7 : (⟨S64x128, .f32⟩ : BufTy).Contents (Elt Ideal))
    (x8 : (⟨S1x64, .f32⟩ : BufTy).Contents (Elt Ideal)) (x9 : (⟨S1, .f32⟩ : BufTy).Contents (Elt Ideal))
    (x11 x12 x13 : (⟨S1000000, .i32⟩ : BufTy).Contents (Elt Ideal)) (x10 : (⟨S128x128, .f32⟩ : BufTy).Contents (Elt Ideal)) (x14 : (⟨S1000000, .i32⟩ : BufTy).Contents (Elt Ideal)) :
    val_main_v50 (F := Ideal) x0 x1 x2 x3 x4 x5 x6 x7 x8 x9 x10 x11 x12 x13 x14
      = outP x0 x1 x2 x3 x4 x5 x6 x7 x8 x9 x11 x12 x13 x10 x14 := by
  have hagg : val_main_v48 (F := Ideal) x0 x1 x2 x3 x4 x5 x6 x7 x8 x9 x11 x12 x13 x14
      = aggP (msgP x0 x1 x2 x3 x4 x5 x6 x7 x8 x9 x11 x12 x13) x14 := by
    unfold val_main_v48
    rw [ref_msg]
    rfl
  funext i
  obtain ⟨v, o, rfl⟩ : ∃ (v : Fin 200000) (o : Fin 128), i = ix2 v o := ⟨i 0, i 1, eq_ix2 i⟩
  rw [val_main_v50_apply, val_main_v49_apply, hagg]
  unfold outP outK
  refine congrArg₂ max (Finset.sum_congr rfl fun d _ => ?_) rfl
  have hl : lidx_main_v49 (ix2 v o) d = ix2 v d := funext fun x => Fin.ext (by match x with | ⟨0, _⟩ => rfl | ⟨1, _⟩ => rfl)
  have hr : ridx_main_v49 (ix2 v o) d = ix2 o d := funext fun x => Fin.ext (by match x with | ⟨0, _⟩ => rfl | ⟨1, _⟩ => rfl)
  rw [hl, hr, whT_apply]

end Cert.ReferenceIdeal.Bridge

end
-- ==== Proof.lean ====
/-
  The certificate of the gated message-passing layer: a two-kernel program against its jnp reference, over the extended
  reals.

  Both programs gather three feature rows per edge, form the gate
  `logistic (∑ a, relu (pre a) * wa a + wb)` of a small attention network, scale the product of two of the rows by it,
  add the messages per target node, and apply a rectified linear layer. The kernel program does the edge work in 200
  blocks of 5000 edges with the weight matrices transposed beforehand, and the node work in 20 blocks of 10000 nodes;
  the reference does each step on whole arrays. Index by index the two are the same sums of the same products in the
  same order of additions, so no law of the extended reals beyond reading each operation at an index is needed, and the
  precondition on the inputs is never opened. The word-level kernel's idealization rewrote nothing, so `preserves` is
  trivial; the three frames are the generated frame certificates and the reference's generated run.
-/
import proofs.«124359_j80092550136107_1_alg».proof.Defs
import proofs.«124359_j80092550136107_1_alg».proof.Proof.Gen.Kernel
import proofs.«124359_j80092550136107_1_alg».proof.Proof.Gen.Kernel.Skeleton
import proofs.«124359_j80092550136107_1_alg».proof.Proof.Gen.Kernel.Launch
import proofs.«124359_j80092550136107_1_alg».proof.Proof.Gen.Kernel.Points
import proofs.«124359_j80092550136107_1_alg».proof.Proof.Gen.Kernel.Frame
import proofs.«124359_j80092550136107_1_alg».proof.Proof.Gen.KernelIdeal
import proofs.«124359_j80092550136107_1_alg».proof.Proof.Gen.KernelIdeal.Skeleton
import proofs.«124359_j80092550136107_1_alg».proof.Proof.Gen.KernelIdeal.Launch
import proofs.«124359_j80092550136107_1_alg».proof.Proof.Gen.KernelIdeal.Points
import proofs.«124359_j80092550136107_1_alg».proof.Proof.Gen.KernelIdeal.Frame
import proofs.«124359_j80092550136107_1_alg».proof.Proof.Gen.ReferenceIdeal
import proofs.«124359_j80092550136107_1_alg».proof.Proof.Gen.Pre_finite_inputs
import proofs.«124359_j80092550136107_1_alg».proof.Proof.Gen.ReferenceIdeal.Run
import proofs.«124359_j80092550136107_1_alg».proof.Proof.Gen.ReferenceIdeal.Read
import proofs.«124359_j80092550136107_1_alg».proof.Proof.KernelValue
import proofs.«124359_j80092550136107_1_alg».proof.Proof.RefBridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation of the kernel program. -/
theorem preserves : Cert.preserves_Kernel_KernelIdeal := trivial

/-- Both programs end with the node array at `outP` and the gate column at `alphaP` of the (agreeing) arguments. -/
theorem algebraic : Cert.algebraic_KernelIdeal_ReferenceIdeal := by
  intro m ρ m' ρ' _ hagree
  refine ⟨fun c => Cert.KernelIdeal.Edge.outP (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg10)) (m ((c.tc : Thread Cert.KernelIdeal.nD Cert.KernelIdeal.τ).loc Cert.KernelIdeal.main_arg14)),
    fun c => Cert.KernelIdeal.Edge.alphaP (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    Cert.KernelIdeal.Hand.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12, a13, a14⟩ := hagree c
  refine ⟨(h c).1.trans ?_, (h c).2.1.trans ?_, (h c).2.2⟩
  · rw [Cert.ReferenceIdeal.Read.val_main_v50_eq, a0, a1, a2, a3, a4, a5, a6, a7, a8, a9, a10, a11, a12, a13, a14]
    exact Cert.ReferenceIdeal.Bridge.ref_out _ _ _ _ _ _ _ _ _ _ _ _ _ _ _
  · refine (Cert.ReferenceIdeal.Read.val_main_v42_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))).trans ?_
    rw [a0, a1, a2, a3, a4, a5, a6, a7, a8, a9, a11, a12, a13]
    exact Cert.ReferenceIdeal.Bridge.ref_alpha _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
